-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S4000000x4 : Shape := ⟨2, ![4000000, 4]⟩
abbrev S500x128 : Shape := ⟨2, ![500, 128]⟩
abbrev S128x128 : Shape := ⟨2, ![128, 128]⟩
abbrev S100000x500 : Shape := ⟨2, ![100000, 500]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_
  bcast_S_S100000x500 : S_.BroadcastsInDim S100000x500 (![] : Fin 0 → Fin S100000x500.rank)
  reducesTo_S100000x500_S_d0_1 : S100000x500.ReducesTo [0, 1] S_
  bcast_S_S4000000 : S_.BroadcastsInDim S4000000 (![] : Fin 0 → Fin S4000000.rank)
  reducesTo_S4000000_S_d0 : S4000000.ReducesTo [0] S_

variable [Facts]

def fn_part1 {F : FTy → Type} [FloatOps F] (main_arg2 : IVec S4000000 32) (main_v13 : IVec S_ 1) (main_v16 : IVec S100000x500 1) : IVec S_ 1 :=
  let main_c_5 : IVec S_ 1 := constantI S_ 1 1#1
  let main_v17 : IVec S_ 1 := (fun x v => Host.reduce IntOp.andi x v reducesTo_S100000x500_S_d0_1 h_S_) main_v16 main_c_5
  let main_v18 : IVec S_ 1 := andi main_v13 main_v17
  let main_c_6 : IVec S_ 32 := constantI S_ 32 100000#32
  let main_v19 : IVec S4000000 32 := broadcastInDim S4000000 ![] bcast_S_S4000000 main_c_6
  let main_v20 : IVec S4000000 1 := cmpi .sge main_arg2 main_v19
  let main_c_7 : IVec S_ 32 := constantI S_ 32 100500#32
  let main_v21 : IVec S4000000 32 := broadcastInDim S4000000 ![] bcast_S_S4000000 main_c_7
  let main_v22 : IVec S4000000 1 := cmpi .slt main_arg2 main_v21
  let main_v23 : IVec S4000000 1 := andi main_v20 main_v22
  let main_c_8 : IVec S_ 1 := constantI S_ 1 1#1
  let main_v24 : IVec S_ 1 := (fun x v => Host.reduce IntOp.andi x v reducesTo_S4000000_S_d0 h_S_) main_v23 main_c_8
  let main_v25 : IVec S_ 1 := andi main_v18 main_v24
  main_v25

def fn {F : FTy → Type} [FloatOps F] (main_arg0 : IVec S4000000 32) (main_arg1 : IVec S4000000 32) (main_arg2 : IVec S4000000 32) (main_arg3 : FVec F S4000000x4 .f32) (main_arg4 : FVec F S500x128 .f32) (main_arg5 : FVec F S128x128 .f32) (main_arg6 : FVec F S100000x500 .f32) : IVec S_ 1 :=
  let main_v0 : FVec F S4000000x4 .f32 := Host.absf main_arg3
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S500x128 .f32 := Host.absf main_arg4
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S100000x500 .f32 := Host.absf main_arg6
  let main_cst_4 : FVec F S_ .f32 := constant S_ .f32 0x7F800000#32
  let main_v15 : FVec F S100000x500 .f32 := broadcastInDim S100000x500 ![] bcast_S_S100000x500 main_cst_4
  let main_v16 : IVec S100000x500 1 := cmpf .olt main_v14 main_v15
  fn_part1 (F := F) main_arg2 main_v13 main_v16
-- ==== Kernel.lean ====
abbrev S4000000 : Shape := ⟨1, ![4000000]⟩
abbrev S4000000x4 : Shape := ⟨2, ![4000000, 4]⟩
abbrev S500x128 : Shape := ⟨2, ![500, 128]⟩
abbrev S128x128 : Shape := ⟨2, ![128, 128]⟩
abbrev S100000x500 : Shape := ⟨2, ![100000, 500]⟩
abbrev S_ : Shape := ⟨0, ![]⟩
abbrev S4000000x1 : Shape := ⟨2, ![4000000, 1]⟩
abbrev S100000x512 : Shape := ⟨2, ![100000, 512]⟩
abbrev S4000000x2 : Shape := ⟨2, ![4000000, 2]⟩
abbrev S512x128 : Shape := ⟨2, ![512, 128]⟩
abbrev S128x512 : Shape := ⟨2, ![128, 512]⟩
abbrev S512x512 : Shape := ⟨2, ![512, 512]⟩
abbrev S100000x1 : Shape := ⟨2, ![100000, 1]⟩
abbrev S5000x512 : Shape := ⟨2, ![5000, 512]⟩
abbrev S5000x500 : Shape := ⟨2, ![5000, 500]⟩
abbrev S5000x1 : Shape := ⟨2, ![5000, 1]⟩
abbrev S5000 : Shape := ⟨1, ![5000]⟩
abbrev S100000 : Shape := ⟨1, ![100000]⟩

abbrev nBuf : Space → Nat
  | .hbm => 62
  | .vmem => 9
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .i32⟩
  | .hbm, ⟨3, _⟩ => ⟨S4000000x4, .f32⟩
  | .hbm, ⟨4, _⟩ => ⟨S500x128, .f32⟩
  | .hbm, ⟨5, _⟩ => ⟨S128x128, .f32⟩
  | .hbm, ⟨6, _⟩ => ⟨S100000x500, .f32⟩
  | .hbm, ⟨7, _⟩ => ⟨S_, .i32⟩
  | .hbm, ⟨8, _⟩ => ⟨S4000000, .i32⟩
  | .hbm, ⟨9, _⟩ => ⟨S4000000, .i32⟩
  | .hbm, ⟨10, _⟩ => ⟨S4000000x1, .f32⟩
  | .hbm, ⟨11, _⟩ => ⟨S4000000, .f32⟩
  | .hbm, ⟨12, _⟩ => ⟨S_, .f32⟩
  | .hbm, ⟨13, _⟩ => ⟨S_, .f32⟩
  | .hbm, ⟨14, _⟩ => ⟨S4000000, .f32⟩
  | .hbm, ⟨15, _⟩ => ⟨S4000000, .f32⟩
  | .hbm, ⟨16, _⟩ => ⟨S_, .f32⟩
  | .hbm, ⟨17, _⟩ => ⟨S100000x512, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x1, .i32⟩
  | .hbm, ⟨34, _⟩ => ⟨S4000000x2, .i32⟩
  | .hbm, ⟨35, _⟩ => ⟨S100000x512, .f32⟩
  | .hbm, ⟨36, _⟩ => ⟨S_, .i32⟩
  | .hbm, ⟨37, _⟩ => ⟨S_, .f32⟩
  | .hbm, ⟨38, _⟩ => ⟨S512x128, .f32⟩
  | .hbm, ⟨39, _⟩ => ⟨S128x512, .f32⟩
  | .hbm, ⟨40, _⟩ => ⟨S128x512, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S100000x1, .f32⟩
  | .hbm, ⟨46, _⟩ => ⟨S100000x1, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S5000x512, .f32⟩
  | .local _ .vmem, ⟨1, _⟩ => ⟨S5000x512, .f32⟩
  | .local _ .vmem, ⟨2, _⟩ => ⟨S5000x500, .f32⟩
  | .local _ .vmem, ⟨3, _⟩ => ⟨S5000x500, .f32⟩
  | .local _ .vmem, ⟨4, _⟩ => ⟨S512x512, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S5000x1, .f32⟩
  | _, _ => ⟨S4000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_call1_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4000000 : S_.BroadcastsInDim S4000000 (![] : Fin 0 → Fin S4000000.rank)
  slices_S4000000x4_S4000000x1_0_0 : S4000000x4.Slices ![0, 0] S4000000x1
  shapeCasts_S4000000x1_S4000000 : S4000000x1.ShapeCasts S4000000
  bcast_S_S100000x512 : S_.BroadcastsInDim S100000x512 (![] : Fin 0 → Fin S100000x512.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  pads_S500x128_S512x128_0120_000 : S500x128.Pads (![0, 0] : Fin 2 → Nat) ![12, 0] ![0, 0] S512x128
  h_S_ : 0 < S_.numel
  transposes_S512x128_S128x512_1_0 : S512x128.Transposes [1, 0] S128x512
  bcast_S_S512x512 : S_.BroadcastsInDim S512x512 (![] : Fin 0 → Fin S512x512.rank)
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S5000x512_o0_0_S5000x500 : S5000x512.Slices ![0, 0] S5000x500
  inb_S5000x500_S5000x500_0_0 : ∀ a, (![0, 0] : Fin 2 → Nat) a + S5000x500.size a ≤ S5000x500.size a
  h_S5000x500 : 0 < S5000x500.numel
  reduces_S5000x500_S5000 : S5000x500.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  reducesTo_S100000_S_d0 : S100000.ReducesTo [0] S_
  scatter_S100000x512_S4000000x2_S4000000_n_01_01_1_wf : ScatterDims.WF S100000x512 S4000000x2 S4000000 [] [0, 1] [0, 1] 1
  dot_S128x128_S128x512_S128x512_1_0_0_1_n_n_wf : DotDims.WF S128x128 S128x512 S128x512 [1] [0] [0] [1] [] []
  dot_S512x128_S128x512_S512x512_1_0_0_1_n_n_wf : DotDims.WF S512x128 S128x512 S512x512 [1] [0] [0] [1] [] []
  dot_S5000x512_S512x512_S5000x512_1_0_0_1_n_n_wf : DotDims.WF S5000x512 S512x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x500.size a ≤ S100000x500.size a
  hwx0_1 : ∀ i : grid0.Coords, EltTy.bits .f32 = 32 ∨ (Rect.block (s := S100000x500) S5000x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)

variable [Facts₀]

def scatter_S100000x512_S4000000x2_S4000000_n_01_01_1 : ScatterDims S100000x512 S4000000x2 S4000000 where
  updateWindowDims := []
  insertedWindowDims := [0, 1]
  scatterDimsToOperandDims := [0, 1]
  indexVectorDim := 1
  wf := scatter_S100000x512_S4000000x2_S4000000_n_01_01_1_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S5000x512_S512x512_S5000x512_1_0_0_1_n_n : DotDims S5000x512 S512x512 S5000x512 where
  lhsContracting := [1]
  rhsContracting := [0]
  lhsNonContracting := [0]
  rhsNonContracting := [1]
  lhsBatch := []
  rhsBatch := []
  wf := dot_S5000x512_S512x512_S5000x512_1_0_0_1_n_n_wf

abbrev win0_0 : Pipeline.Window sig grid0 :=
  Pipeline.Window.ofSpec (Memref.whole main_v19) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S5000x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S5000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4000000 : Shape := ⟨1, ![4000000]⟩
abbrev S4000000x4 : Shape := ⟨2, ![4000000, 4]⟩
abbrev S500x128 : Shape := ⟨2, ![500, 128]⟩
abbrev S128x128 : Shape := ⟨2, ![128, 128]⟩
abbrev S100000x500 : Shape := ⟨2, ![100000, 500]⟩
abbrev S_ : Shape := ⟨0, ![]⟩
abbrev S4000000x1 : Shape := ⟨2, ![4000000, 1]⟩
abbrev S4000000x2 : Shape := ⟨2, ![4000000, 2]⟩
abbrev S128x500 : Shape := ⟨2, ![128, 500]⟩
abbrev S500x500 : Shape := ⟨2, ![500, 500]⟩
abbrev S100000 : Shape := ⟨1, ![100000]⟩

abbrev nBuf : Space → Nat
  | .hbm => 70
  | .vmem => 0
  | .smem => 0
  | _ => 0

abbrev bufTy : (tb : Table) → Fin (tcTables nBuf tb) → BufTy
  | .hbm, ⟨0, _⟩ => ⟨S4000000, .i32⟩
  | .hbm, ⟨1, _⟩ => ⟨S4000000, .i32⟩
  | .hbm, ⟨2, _⟩ => ⟨S4000000, .i32⟩
  | .hbm, ⟨3, _⟩ => ⟨S4000000x4, .f32⟩
  | .hbm, ⟨4, _⟩ => ⟨S500x128, .f32⟩
  | .hbm, ⟨5, _⟩ => ⟨S128x128, .f32⟩
  | .hbm, ⟨6, _⟩ => ⟨S100000x500, .f32⟩
  | .hbm, ⟨7, _⟩ => ⟨S_, .i32⟩
  | .hbm, ⟨8, _⟩ => ⟨S4000000, .i32⟩
  | .hbm, ⟨9, _⟩ => ⟨S4000000, .i32⟩
  | .hbm, ⟨10, _⟩ => ⟨S4000000x1, .f32⟩
  | .hbm, ⟨11, _⟩ => ⟨S4000000, .f32⟩
  | .hbm, ⟨12, _⟩ => ⟨S_, .f32⟩
  | .hbm, ⟨13, _⟩ => ⟨S_, .f32⟩
  | .hbm, ⟨14, _⟩ => ⟨S4000000, .f32⟩
  | .hbm, ⟨15, _⟩ => ⟨S4000000, .f32⟩
  | .hbm, ⟨16, _⟩ => ⟨S_, .f32⟩
  | .hbm, ⟨17, _⟩ => ⟨S100000x500, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x1, .i32⟩
  | .hbm, ⟨34, _⟩ => ⟨S4000000x2, .i32⟩
  | .hbm, ⟨35, _⟩ => ⟨S100000x500, .f32⟩
  | .hbm, ⟨36, _⟩ => ⟨S128x500, .f32⟩
  | .hbm, ⟨37, _⟩ => ⟨S128x500, .f32⟩
  | .hbm, ⟨38, _⟩ => ⟨S500x500, .f32⟩
  | .hbm, ⟨39, _⟩ => ⟨S_, .f32⟩
  | .hbm, ⟨40, _⟩ => ⟨S500x500, .f32⟩
  | .hbm, ⟨41, _⟩ => ⟨S500x500, .f32⟩
  | .hbm, ⟨42, _⟩ => ⟨S100000x500, .f32⟩
  | .hbm, ⟨43, _⟩ => ⟨S100000x500, .f32⟩
  | .hbm, ⟨44, _⟩ => ⟨S_, .f32⟩
  | .hbm, ⟨45, _⟩ => ⟨S100000x500, .f32⟩
  | .hbm, ⟨46, _⟩ => ⟨S100000x500, .f32⟩
  | .hbm, ⟨47, _⟩ => ⟨S_, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  slices_S4000000x4_S4000000x1_0_0 : S4000000x4.Slices ![0, 0] S4000000x1
  shapeCasts_S4000000x1_S4000000 : S4000000x1.ShapeCasts S4000000
  bcast_S_S100000x500 : S_.BroadcastsInDim S100000x500 (![] : Fin 0 → Fin S100000x500.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  transposes_S500x128_S128x500_1_0 : S500x128.Transposes [1, 0] S128x500
  bcast_S_S500x500 : S_.BroadcastsInDim S500x500 (![] : Fin 0 → Fin S500x500.rank)
  reducesTo_S100000x500_S100000_d1 : S100000x500.ReducesTo [1] S100000
  h_S_ : 0 < S_.numel
  bcast_S_S100000 : S_.BroadcastsInDim S100000 (![] : Fin 0 → Fin S100000.rank)
  reducesTo_S100000_S_d0 : S100000.ReducesTo [0] S_
  scatter_S100000x500_S4000000x2_S4000000_n_01_01_1_wf : ScatterDims.WF S100000x500 S4000000x2 S4000000 [] [0, 1] [0, 1] 1
  dot_S128x128_S128x500_S128x500_1_0_0_1_n_n_wf : DotDims.WF S128x128 S128x500 S128x500 [1] [0] [0] [1] [] []
  dot_S500x128_S128x500_S500x500_1_0_0_1_n_n_wf : DotDims.WF S500x128 S128x500 S500x500 [1] [0] [0] [1] [] []
  dot_S100000x500_S500x500_S100000x500_1_0_0_1_n_n_wf : DotDims.WF S100000x500 S500x500 S100000x500 [1] [0] [0] [1] [] []

variable [Facts₀]

def scatter_S100000x500_S4000000x2_S4000000_n_01_01_1 : ScatterDims S100000x500 S4000000x2 S4000000 where
  updateWindowDims := []
  insertedWindowDims := [0, 1]
  scatterDimsToOperandDims := [0, 1]
  indexVectorDim := 1
  wf := scatter_S100000x500_S4000000x2_S4000000_n_01_01_1_wf
def dot_S128x128_S128x500_S128x500_1_0_0_1_n_n : DotDims S128x128 S128x500 S128x500 where
  lhsContracting := [1]
  rhsContracting := [0]
  lhsNonContracting := [0]
  rhsNonContracting := [1]
  lhsBatch := []
  rhsBatch := []
  wf := dot_S128x128_S128x500_S128x500_1_0_0_1_n_n_wf
def dot_S500x128_S128x500_S500x500_1_0_0_1_n_n : DotDims S500x128 S128x500 S500x500 where
  lhsContracting := [1]
  rhsContracting := [0]
  lhsNonContracting := [0]
  rhsNonContracting := [1]
  lhsBatch := []
  rhsBatch := []
  wf := dot_S500x128_S128x500_S500x500_1_0_0_1_n_n_wf
def dot_S100000x500_S500x500_S100000x500_1_0_0_1_n_n : DotDims S100000x500 S500x500 S100000x500 where
  lhsContracting := [1]
  rhsContracting := [0]
  lhsNonContracting := [0]
  rhsNonContracting := [1]
  lhsBatch := []
  rhsBatch := []
  wf := dot_S100000x500_S500x500_S100000x500_1_0_0_1_n_n_wf

class Facts : Prop extends Facts₀ where

variable [Facts]
-- ==== Proof.KTail.lean ====
/-
  The kernel program's host operations after its region: from the two per-firm loss columns the region leaves
  ([100000,1] each), flattened to vectors, the three results — the sum of (debt − consumption), of the debts and of
  the consumptions over the firms, each divided by the number of edges. Written as functions `fin0`, `fin1` of the
  flattened vectors so that the reference's last lines can be read as the same functions of its own two vectors.
-/
import proofs.«123789_j74801150427802_2_alg».proof.Proof.Gen.KernelIdeal.Frame
import Idealize.ShloMosaic.PureOps.Ideal
import Idealize.ShloMosaic.Lib.StableHlo.Run

noncomputable section

namespace Cert.KernelIdeal.KTail

open Cert.KernelIdeal Cert.KernelIdeal.Gen Idealize.ShloMosaic Idealize.ShloMosaic.TcCoe Idealize.SL.Sem Idealize.ShloMosaic.StableHlo

/-- The first result: the sum over the firms of debt − consumption, over the number of edges. -/
def fin0 (d k : (⟨S100000, .f32⟩ : BufTy).Contents (Elt Ideal)) : (⟨S_, .f32⟩ : BufTy).Contents (Elt Ideal) :=
  Host.divf (Host.reduceAdd (subf d k) (constant (F := Ideal) S_ .f32 0x00000000#32) Facts₀.reducesTo_S100000_S_d0 Facts₀.h_S_)
    (constant (F := Ideal) S_ .f32 0x4A742400#32)

/-- The second and third results: the sum over the firms of one loss, over the number of edges. -/
def fin1 (d : (⟨S100000, .f32⟩ : BufTy).Contents (Elt Ideal)) : (⟨S_, .f32⟩ : BufTy).Contents (Elt Ideal) :=
  Host.divf (Host.reduceAdd d (constant (F := Ideal) S_ .f32 0x00000000#32) Facts₀.reducesTo_S100000_S_d0 Facts₀.h_S_)
    (constant (F := Ideal) S_ .f32 0x4A742400#32)

/-- A [100000,1] column flattened to a vector. -/
def flat (x : (⟨S100000x1, .f32⟩ : BufTy).Contents (Elt Ideal)) : (⟨S100000, .f32⟩ : BufTy).Contents (Elt Ideal) :=
  shapeCast _ x Facts₀.shapeCasts_S100000x1_S100000

variable (m : (ℓ : Loc nD τ sig) → Buf (Elt Ideal) ℓ) (c : Dev nD)

/-- The debt column after the run. -/
def debtCol : (⟨S100000x1, .f32⟩ : BufTy).Contents (Elt Ideal) := (dats m 0 c).arrAt 3 cfg0.N
/-- The consumption column after the run. -/
def consCol : (⟨S100000x1, .f32⟩ : BufTy).Contents (Elt Ideal) := (dats m 0 c).arrAt 4 cfg0.N

theorem tail_v30 : Pipeline.afterTail₀ cfgs (dats m) 0 (V0 m) [hostOps1] c main_v30 = fin0 (flat (debtCol m c)) (flat (consCol m c)) := by
  unfold Pipeline.afterTail₀
  show StableHlo.after (hostOps1 (F := Ideal)) _ (Proc.devRef .tc main_v30) = _
  after_results
  rw [Pipeline.withArrays_arr spec0 launch0.win.arr_inj c _ _ 3, Pipeline.withArrays_arr spec0 launch0.win.arr_inj c _ _ 4]
  rfl

theorem tail_v32 : Pipeline.afterTail₀ cfgs (dats m) 0 (V0 m) [hostOps1] c main_v32 = fin1 (flat (debtCol m c)) := by
  unfold Pipeline.afterTail₀
  show StableHlo.after (hostOps1 (F := Ideal)) _ (Proc.devRef .tc main_v32) = _
  after_results
  rw [Pipeline.withArrays_arr spec0 launch0.win.arr_inj c _ _ 3]
  rfl

theorem tail_v34 : Pipeline.afterTail₀ cfgs (dats m) 0 (V0 m) [hostOps1] c main_v34 = fin1 (flat (consCol m c)) := by
  unfold Pipeline.afterTail₀
  show StableHlo.after (hostOps1 (F := Ideal)) _ (Proc.devRef .tc main_v34) = _
  after_results
  rw [Pipeline.withArrays_arr spec0 launch0.win.arr_inj c _ _ 4]
  rfl

end Cert.KernelIdeal.KTail

end
-- ==== Proof.KRun.lean ====
/-
  The kernel program's run with its three results named: every weakly fair execution terminates, the results are the
  three sums of the two loss columns the region leaves, and the argument arrays end unchanged. Read off the frame run:
  a result buffer is no array of the pipeline, so it ends as the host operations after the region leave it.
-/
import proofs.«123789_j74801150427802_2_alg».proof.Proof.Gen.KernelIdeal.Frame
import proofs.«123789_j74801150427802_2_alg».proof.Proof.KTail

noncomputable section

namespace Cert.KernelIdeal.KRun

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = KTail.fin0 (KTail.flat (KTail.debtCol m c)) (KTail.flat (KTail.consCol m c))
      ∧ r.2.mem ((c.tc : Thread nD τ).loc main_v32) = KTail.fin1 (KTail.flat (KTail.debtCol m c))
      ∧ r.2.mem ((c.tc : Thread nD τ).loc main_v34) = KTail.fin1 (KTail.flat (KTail.consCol m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v30 (Pipeline.mem_restRefs_of main_v30 (by decide) (by decide))).trans (KTail.tail_v30 m c),
      ((h c).2 main_v32 (Pipeline.mem_restRefs_of main_v32 (by decide) (by decide))).trans (KTail.tail_v32 m c),
      ((h c).2 main_v34 (Pipeline.mem_restRefs_of main_v34 (by decide) (by decide))).trans (KTail.tail_v34 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 1).trans (((dats m 0 c).arrAt_in 1 rfl _).trans ((A_eq m c 1).trans (V_main_arg6 m c)))⟩)
    (run_main m ρ)

end Cert.KernelIdeal.KRun

end
-- ==== Proof.PreRange.lean ====
/-
  The product identifiers lie in [100000, 100500). The precondition's last conjunct is the conjunction, over all
  4000000 events, of the two signed comparisons 100000 ≤ prod and prod < 100500; when the whole predicate is the
  one-bit word 1, every conjunct is 1, so every event's pair of comparison bits is 1, and a comparison bit that is 1
  says the signed order of the two words it compares.
-/
import proofs.«123789_j74801150427802_2_alg».proof.Pre_finite_inputs
import proofs.«123789_j74801150427802_2_alg».proof.Proof.Gen.Pre_finite_inputs
import Idealize.ShloMosaic.Lib.ReduceAll
import Idealize.ShloMosaic.Lib.ValueIdx
import Idealize.ShloMosaic.PureOps.Ideal

noncomputable section

namespace Cert.Bridge

open Idealize.ShloMosaic Idealize.ShloMosaic.ValueIdx
open Cert.Pre_finite_inputs Cert.Pre_finite_inputs.Facts

/-- The rank-0 shape has one index. -/
instance preScalarIdx_subsingleton : Subsingleton S_.Idx := ⟨fun a b => funext fun d => d.elim0⟩

/-- Every product identifier is at least 100000 and below 100500, read as a signed integer. -/
theorem prod_range (x0 x1 x2 : (⟨Cert.Pre_finite_inputs.S4000000, .i32⟩ : BufTy).Contents (Elt Ideal))
    (x3 : (⟨Cert.Pre_finite_inputs.S4000000x4, .f32⟩ : BufTy).Contents (Elt Ideal))
    (x4 : (⟨Cert.Pre_finite_inputs.S500x128, .f32⟩ : BufTy).Contents (Elt Ideal))
    (x5 : (⟨Cert.Pre_finite_inputs.S128x128, .f32⟩ : BufTy).Contents (Elt Ideal))
    (x6 : (⟨Cert.Pre_finite_inputs.S100000x500, .f32⟩ : BufTy).Contents (Elt Ideal))
    (h : Cert.Pre_finite_inputs.fn (F := Ideal) x0 x1 x2 x3 x4 x5 x6 = (fun _ => 1#1)) (e : Fin 4000000) :
    100000 ≤ (x2 (ix1 e)).toInt ∧ (x2 (ix1 e)).toInt < 100500 := by
  have h0 := congrFun h ix0
  dsimp only [Cert.Pre_finite_inputs.fn, Cert.Pre_finite_inputs.fn_part1] at h0
  -- the outermost conjunction: everything before, and the product-range conjunct
  have hlast := (IntOp.andi_eq_one.1 h0).2
  -- the conjunction over all events gives the pair of comparison bits of event e
  have he := Host.reduce_andi_all _ _ _ _ _ hlast (ix1 e)
  obtain ⟨hge, hlt⟩ := IntOp.andi_eq_one.1 he
  have hge' := IntOp.cmpi_sge.1 hge
  have hlt' := IntOp.cmpi_slt.1 hlt
  exact ⟨hge', hlt'⟩

end Cert.Bridge

end
-- ==== Proof.Spec.lean ====
/-
  The per-firm losses both programs compute, as functions of one firm's consumed amounts:
  debt = 10 · Σ_j max(consumed_j − inventory_j, 0) and consumption = 1 · Σ_j consumed_j over the 500 products,
  the weights kept as the f32 words both programs carry. Also the one arithmetic fact that joins the padded
  product axis (512) to the real one (500): a sum over 512 terms whose last twelve vanish is the sum of the first 500.
-/
import Idealize.ShloMosaic.PureOps.Ideal
import Idealize.ShloMosaic.PureOps.Ideal.Laws

noncomputable section

open scoped BigOperators

namespace Cert.Spec

open Idealize.ShloMosaic

/-- The debt penalty, the f32 word of 10. -/
def wDebt : EReal := Ideal.ofBits .f32 0x41200000#32
/-- The consumption reward, the f32 word of 1. -/
def wCons : EReal := Ideal.ofBits .f32 0x3F800000#32

/-- One firm's debt loss from its consumed amounts and its inventory. -/
def debtRow (tc inv : Fin 500 → EReal) : EReal := wDebt * ∑ j : Fin 500, max (tc j - inv j) 0
/-- One firm's consumption loss from its consumed amounts. -/
def consRow (tc : Fin 500 → EReal) : EReal := wCons * ∑ j : Fin 500, tc j

/-- A product number as a position on the padded axis. -/
def up (q : Fin 500) : Fin 512 := Fin.castLE (by decide) q

@[simp] theorem up_val (q : Fin 500) : (up q).val = q.val := rfl

/-- A sum over the padded axis whose terms vanish from position 500 on is the sum over the real products. -/
theorem sum_pad (g : Fin 512 → EReal) (hz : ∀ q : Fin 512, 500 ≤ q.val → g q = 0) :
    ∑ q : Fin 512, g q = ∑ q : Fin 500, g (up q) := by
  have h := Fin.sum_univ_add (M := EReal) (a := 500) (b := 12) g
  rw [h]
  have h2 : ∑ i : Fin 12, g (Fin.natAdd 500 i) = 0 :=
    Finset.sum_eq_zero fun i _ => hz _ (by simp [Fin.natAdd])
  rw [h2, add_zero]
  rfl

/-- The consumed amount of one product over the padded axis equals the one over the real axis, when the supplied
    totals and the attention weights agree on the real products and the padded attention rows are zero. -/
theorem consumed_pad (ts : Fin 512 → EReal) (ts' : Fin 500 → EReal) (a : Fin 512 → EReal) (a' : Fin 500 → EReal)
    (hts : ∀ q : Fin 500, ts (up q) = ts' q) (ha : ∀ q : Fin 500, a (up q) = a' q)
    (hz : ∀ q : Fin 512, 500 ≤ q.val → a q = 0) :
    ∑ q : Fin 512, ts q * a q = ∑ q : Fin 500, ts' q * a' q := by
  rw [sum_pad (fun q => ts q * a q) (fun q hq => by rw [hz q hq, mul_zero])]
  exact Finset.sum_congr rfl fun q _ => by rw [hts, ha]

end Cert.Spec

end
-- ==== Proof.KHost.lean ====
/-
  The kernel program's host operations before its one region, as whole-array functions of the argument arrays:
  the product column `prod - 100000`, the clipped amounts `max(1, raw_msg[:,0])`, the two index columns with
  jnp's wrap of a negative index (by 100000 for the firm axis, by 512 for the padded product axis), the
  scatter-add of the amounts into a zero [100000, 512] table, the product embeddings padded by twelve zero rows,
  and the attention weights `relu(E_p · (B · E_pᵀ))` over the padded 512 products.
-/
import proofs.«123789_j74801150427802_2_alg».proof.Proof.Gen.KernelIdeal

noncomputable section

namespace Cert.KernelIdeal.KHost

open Cert.KernelIdeal Idealize.ShloMosaic Idealize.ShloMosaic.TcCoe
open Cert.KernelIdeal.Facts₀ Cert.KernelIdeal.Facts

variable {F : FTy → Type} [FloatOps F]

/-- `prod - 100000`: the product number counted from zero. -/
def prod0 (x2 : (⟨S4000000, .i32⟩ : BufTy).Contents (Elt F)) : (⟨S4000000, .i32⟩ : BufTy).Contents (Elt F) :=
  subi x2 (broadcastInDim S4000000 ![] bcast_S_S4000000 (constantI S_ 32 100000#32))

/-- The amounts: column 0 of `raw_msg`, clipped below at 1. -/
def amt (x3 : (⟨S4000000x4, .f32⟩ : BufTy).Contents (Elt F)) : (⟨S4000000, .f32⟩ : BufTy).Contents (Elt F) :=
  maximumf (broadcastInDim S4000000 ![] bcast_S_S4000000 (id (constant S_ .f32 0x3F800000#32)))
    (shapeCast _ (extractStridedSlice S4000000x1 ![0, 0] x3 slices_S4000000x4_S4000000x1_0_0) shapeCasts_S4000000x1_S4000000)

/-- The firm index of each edge, a negative one wrapped by the number of firms. -/
def rowIdx (x0 : (⟨S4000000, .i32⟩ : BufTy).Contents (Elt F)) : (⟨S4000000, .i32⟩ : BufTy).Contents (Elt F) :=
  select (cmpi .slt x0 (broadcastInDim S4000000 ![] bcast_S_S4000000 (constantI S_ 32 0#32)))
    (addi x0 (broadcastInDim S4000000 ![] bcast_S_S4000000 (constantI S_ 32 100000#32))) x0

/-- The product index of each edge, a negative one wrapped by the padded width 512. -/
def colIdx (x2 : (⟨S4000000, .i32⟩ : BufTy).Contents (Elt F)) : (⟨S4000000, .i32⟩ : BufTy).Contents (Elt F) :=
  select (cmpi .slt (prod0 (F := F) x2) (broadcastInDim S4000000 ![] bcast_S_S4000000 (constantI S_ 32 0#32)))
    (addi (prod0 (F := F) x2) (broadcastInDim S4000000 ![] bcast_S_S4000000 (constantI S_ 32 512#32))) (prod0 (F := F) x2)

/-- The scatter indices: the two columns side by side. -/
def scatIdx (x0 x2 : (⟨S4000000, .i32⟩ : BufTy).Contents (Elt F)) : (⟨S4000000x2, .i32⟩ : BufTy).Contents (Elt F) :=
  concatenate S4000000x2 1 [⟨S4000000x1, broadcastInDim S4000000x1 ![0] bcast_S4000000_S4000000x1_0 (rowIdx (F := F) x0)⟩,
    ⟨S4000000x1, broadcastInDim S4000000x1 ![0] bcast_S4000000_S4000000x1_0 (colIdx (F := F) x2)⟩] concatenates_S4000000x1_S4000000x1_S4000000x2_d1

/-- The supplied totals per firm and (padded) product: the amounts scatter-added into a zero table. -/
def supplied (x0 x2 : (⟨S4000000, .i32⟩ : BufTy).Contents (Elt F)) (x3 : (⟨S4000000x4, .f32⟩ : BufTy).Contents (Elt F)) :
    (⟨S100000x512, .f32⟩ : BufTy).Contents (Elt F) :=
  Host.scatterAdd scatter_S100000x512_S4000000x2_S4000000_n_01_01_1
    (broadcastInDim S100000x512 ![] bcast_S_S100000x512 (constant S_ .f32 0x00000000#32)) (scatIdx (F := F) x0 x2) (amt (F := F) x3)

/-- The product embeddings with twelve zero rows appended. -/
def embPad (x4 : (⟨S500x128, .f32⟩ : BufTy).Contents (Elt F)) : (⟨S512x128, .f32⟩ : BufTy).Contents (Elt F) :=
  pad S512x128 ![0, 0] ![12, 0] ![0, 0] x4 (sitofp .f32 (constantI S_ 32 0#32)) pads_S500x128_S512x128_0120_000 h_S_

/-- `B · E_pᵀ`. -/
def bilin (x4 : (⟨S500x128, .f32⟩ : BufTy).Contents (Elt F)) (x5 : (⟨S128x128, .f32⟩ : BufTy).Contents (Elt F)) :
    (⟨S128x512, .f32⟩ : BufTy).Contents (Elt F) :=
  Host.dotGeneral dot_S128x128_S128x512_S128x512_1_0_0_1_n_n none x5
    (transpose S128x512 [1, 0] (embPad (F := F) x4) transposes_S512x128_S128x512_1_0)

/-- `E_p · (B · E_pᵀ)`. -/
def scores (x4 : (⟨S500x128, .f32⟩ : BufTy).Contents (Elt F)) (x5 : (⟨S128x128, .f32⟩ : BufTy).Contents (Elt F)) :
    (⟨S512x512, .f32⟩ : BufTy).Contents (Elt F) :=
  Host.dotGeneral dot_S512x128_S128x512_S512x512_1_0_0_1_n_n none (embPad (F := F) x4) (bilin (F := F) x4 x5)

/-- The attention weights over the padded products: the positive part of the scores. -/
def att (x4 : (⟨S500x128, .f32⟩ : BufTy).Contents (Elt F)) (x5 : (⟨S128x128, .f32⟩ : BufTy).Contents (Elt F)) :
    (⟨S512x512, .f32⟩ : BufTy).Contents (Elt F) :=
  maximumf (scores (F := F) x4 x5) (broadcastInDim S512x512 ![] bcast_S_S512x512 (constant S_ .f32 0x00000000#32))

end Cert.KernelIdeal.KHost

end
-- ==== Proof.LibAfterAppend.lean ====
/-
  A general fact about a straight line of host operations: running one list of operations and then another leaves
  every buffer holding what running their concatenation leaves. It lets a long line be read stretch by stretch, the
  contents after an earlier stretch standing as a name while a later stretch is computed.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.LibAfterAppend
-- ==== Proof.KPre.lean ====
/-
  What the kernel program's host operations before its region leave in the two arrays the region reads besides the
  inventory: the supplied totals (the scatter-add) and the attention weights, each as the whole-array function of the
  argument arrays written in KHost. The line of thirty-eight operations is read stretch by stretch: the contents after an
  earlier stretch stand as a name while a later stretch is computed.
-/
import proofs.«123789_j74801150427802_2_alg».proof.Proof.Gen.KernelIdeal.Frame
import proofs.«123789_j74801150427802_2_alg».proof.Proof.KHost
import proofs.«123789_j74801150427802_2_alg».proof.Proof.LibAfterAppend
import Idealize.ShloMosaic.PureOps.Ideal
import Idealize.ShloMosaic.Lib.StableHlo.Run

noncomputable section

namespace Cert.KernelIdeal.KPre

open Cert.KernelIdeal Cert.KernelIdeal.Gen Idealize.ShloMosaic Idealize.ShloMosaic.TcCoe Idealize.SL.Sem Idealize.ShloMosaic.StableHlo

section Stretches

variable (W : Valuation τ sig (Elt Ideal))

/-! ### Stretch 0: the product column, the amounts' column, the constant 1 -/

theorem s0_v1 : after (hostOps0 (F := Ideal)) W (Proc.devRef .tc main_v1) = KHost.prod0 (F := Ideal) (W (Proc.devRef .tc main_arg2)) := by
  after_results <;> rfl
theorem s0_v3 : after (hostOps0 (F := Ideal)) W (Proc.devRef .tc main_v3) =
    shapeCast _ (extractStridedSlice S4000000x1 ![0, 0] (W (Proc.devRef .tc main_arg3)) Facts₀.slices_S4000000x4_S4000000x1_0_0) Facts₀.shapeCasts_S4000000x1_S4000000 := by
  after_results <;> rfl
theorem s0_cst : after (hostOps0 (F := Ideal)) W (Proc.devRef .tc main_cst) = constant (F := Ideal) S_ .f32 0x3F800000#32 := by
  after_results
theorem s0_keep_arg0 : after (hostOps0 (F := Ideal)) W (Proc.devRef .tc main_arg0) = W (Proc.devRef .tc main_arg0) := by
  after_results
theorem s0_keep_arg4 : after (hostOps0 (F := Ideal)) W (Proc.devRef .tc main_arg4) = W (Proc.devRef .tc main_arg4) := by
  after_results
theorem s0_keep_arg5 : after (hostOps0 (F := Ideal)) W (Proc.devRef .tc main_arg5) = W (Proc.devRef .tc main_arg5) := by
  after_results

/-! ### Stretch 1: the clip -/

theorem s1_v4 : (after (hostOps0_1 (F := Ideal)) W (Proc.devRef .tc main_v4) : (⟨S4000000, .f32⟩ : BufTy).Contents (Elt Ideal)) =
    maximumf (F := Ideal) (φ := .f32) (broadcastInDim (α := Ideal .f32) S4000000 ![] Facts₀.bcast_S_S4000000 (id (W (Proc.devRef .tc main_cst) : FVec Ideal S_ .f32)))
      (W (Proc.devRef .tc main_v3) : FVec Ideal S4000000 .f32) := by
  after_results <;> rfl
theorem s1_keep_arg0 : after (hostOps0_1 (F := Ideal)) W (Proc.devRef .tc main_arg0) = W (Proc.devRef .tc main_arg0) := by
  after_results
theorem s1_keep_arg4 : after (hostOps0_1 (F := Ideal)) W (Proc.devRef .tc main_arg4) = W (Proc.devRef .tc main_arg4) := by
  after_results
theorem s1_keep_arg5 : after (hostOps0_1 (F := Ideal)) W (Proc.devRef .tc main_arg5) = W (Proc.devRef .tc main_arg5) := by
  after_results
theorem s1_keep_v1 : after (hostOps0_1 (F := Ideal)) W (Proc.devRef .tc main_v1) = W (Proc.devRef .tc main_v1) := by
  after_results

/-! ### Stretch 2: the index columns and the scatter-add -/

set_option maxHeartbeats 8000000 in
set_option maxRecDepth 8192 in
theorem s2_v19 : after (hostOps0_2 (F := Ideal)) W (Proc.devRef .tc main_v19) =
    Host.scatterAdd scatter_S100000x512_S4000000x2_S4000000_n_01_01_1
      (broadcastInDim S100000x512 ![] Facts₀.bcast_S_S100000x512 (constant (F := Ideal) S_ .f32 0x00000000#32))
      (concatenate S4000000x2 1
        [⟨S4000000x1, broadcastInDim S4000000x1 ![0] Facts₀.bcast_S4000000_S4000000x1_0
            (select (cmpi .slt (W (Proc.devRef .tc main_arg0)) (broadcastInDim S4000000 ![] Facts₀.bcast_S_S4000000 (constantI S_ 32 0#32)))
              (addi (W (Proc.devRef .tc main_arg0)) (broadcastInDim S4000000 ![] Facts₀.bcast_S_S4000000 (constantI S_ 32 100000#32))) (W (Proc.devRef .tc main_arg0)))⟩,
         ⟨S4000000x1, broadcastInDim S4000000x1 ![0] Facts₀.bcast_S4000000_S4000000x1_0
            (select (cmpi .slt (W (Proc.devRef .tc main_v1)) (broadcastInDim S4000000 ![] Facts₀.bcast_S_S4000000 (constantI S_ 32 0#32)))
              (addi (W (Proc.devRef .tc main_v1)) (broadcastInDim S4000000 ![] Facts₀.bcast_S_S4000000 (constantI S_ 32 512#32))) (W (Proc.devRef .tc main_v1)))⟩]
        Facts₀.concatenates_S4000000x1_S4000000x1_S4000000x2_d1)
      (W (Proc.devRef .tc main_v4)) := by
  after_results <;> rfl
theorem s2_c5 : after (hostOps0_2 (F := Ideal)) W (Proc.devRef .tc main_c_5) = constantI S_ 32 0#32 := by
  after_results
theorem s2_keep_arg4 : after (hostOps0_2 (F := Ideal)) W (Proc.devRef .tc main_arg4) = W (Proc.devRef .tc main_arg4) := by
  after_results
theorem s2_keep_arg5 : after (hostOps0_2 (F := Ideal)) W (Proc.devRef .tc main_arg5) = W (Proc.devRef .tc main_arg5) := by
  after_results

/-! ### Stretch 3: the padding of the embeddings -/

theorem s3_v20 : after (hostOps0_3 (F := Ideal)) W (Proc.devRef .tc main_v20) =
    pad S512x128 ![0, 0] ![12, 0] ![0, 0] (W (Proc.devRef .tc main_arg4)) (sitofp (F := Ideal) .f32 (W (Proc.devRef .tc main_c_5))) Facts₀.pads_S500x128_S512x128_0120_000 Facts₀.h_S_ := by
  after_results <;> rfl
theorem s3_keep_arg5 : after (hostOps0_3 (F := Ideal)) W (Proc.devRef .tc main_arg5) = W (Proc.devRef .tc main_arg5) := by
  after_results
theorem s3_keep_v19 : after (hostOps0_3 (F := Ideal)) W (Proc.devRef .tc main_v19) = W (Proc.devRef .tc main_v19) := by
  after_results

/-! ### Stretch 4: the two matrix products -/

theorem s4_v23 : (after (hostOps0_4 (F := Ideal)) W (Proc.devRef .tc main_v23) : (⟨S512x512, .f32⟩ : BufTy).Contents (Elt Ideal)) =
    Host.dotGeneral (F := Ideal) (φ₁ := .f32) (φ₂ := .f32) dot_S512x128_S128x512_S512x512_1_0_0_1_n_n none (W (Proc.devRef .tc main_v20) : FVec Ideal S512x128 .f32)
      (Host.dotGeneral (F := Ideal) (φ₁ := .f32) (φ₂ := .f32) dot_S128x128_S128x512_S128x512_1_0_0_1_n_n none (W (Proc.devRef .tc main_arg5) : FVec Ideal S128x128 .f32)
        (transpose (α := Ideal .f32) S128x512 [1, 0] (W (Proc.devRef .tc main_v20) : FVec Ideal S512x128 .f32) Facts₀.transposes_S512x128_S128x512_1_0)) := by
  after_results <;> rfl
theorem s4_keep_v19 : after (hostOps0_4 (F := Ideal)) W (Proc.devRef .tc main_v19) = W (Proc.devRef .tc main_v19) := by
  after_results

/-! ### Stretch 5: the positive part -/

theorem s5_v24 : after (hostOps0_5 (F := Ideal)) W (Proc.devRef .tc main_v24) =
    maximumf (W (Proc.devRef .tc main_v23)) (broadcastInDim S512x512 ![] Facts₀.bcast_S_S512x512 (constant (F := Ideal) S_ .f32 0x00000000#32)) := by
  after_results <;> rfl
theorem s5_keep_v19 : after (hostOps0_5 (F := Ideal)) W (Proc.devRef .tc main_v19) = W (Proc.devRef .tc main_v19) := by
  after_results

end Stretches

variable (m : (ℓ : Loc nD τ sig) → Buf (Elt Ideal) ℓ) (c : Dev nD)

/-- The contents at the region's entry, stretch after stretch. -/
theorem V0_eq : V0 m c = after (hostOps0_5 (F := Ideal)) (after (hostOps0_4 (F := Ideal)) (after (hostOps0_3 (F := Ideal))
    (after (hostOps0_2 (F := Ideal)) (after (hostOps0_1 (F := Ideal)) (after (hostOps0 (F := Ideal)) (fun b => m (c, b))))))) := by
  show after (List.flatten [hostOps0, hostOps0_1, hostOps0_2, hostOps0_3, hostOps0_4, hostOps0_5]) _ = _
  rw [show List.flatten [hostOps0 (F := Ideal), hostOps0_1, hostOps0_2, hostOps0_3, hostOps0_4, hostOps0_5]
      = hostOps0 ++ (hostOps0_1 ++ (hostOps0_2 ++ (hostOps0_3 ++ (hostOps0_4 ++ hostOps0_5)))) from by
    simp only [List.flatten_cons, List.flatten_nil, List.append_nil]]
  rw [Cert.LibAfterAppend.after_append, Cert.LibAfterAppend.after_append, Cert.LibAfterAppend.after_append,
    Cert.LibAfterAppend.after_append, Cert.LibAfterAppend.after_append]

/-- The region finds the supplied totals in `main_v19`. -/
theorem V_supplied : (V m c main_v19 : S100000x512.Idx → EReal) =
    KHost.supplied (F := Ideal) (m ((c : Thread nD τ).loc main_arg0)) (m ((c : Thread nD τ).loc main_arg2)) (m ((c : Thread nD τ).loc main_arg3)) := by
  show V0 m c (Proc.devRef .tc main_v19) = _
  rw [V0_eq, s5_keep_v19, s4_keep_v19, s3_keep_v19, s2_v19, s1_v4, s1_keep_arg0, s1_keep_v1, s0_v1, s0_v3, s0_cst, s0_keep_arg0]
  rfl

/-- The region finds the attention weights in `main_v24`. -/
theorem V_att : (V m c main_v24 : S512x512.Idx → EReal) =
    KHost.att (F := Ideal) (m ((c : Thread nD τ).loc main_arg4)) (m ((c : Thread nD τ).loc main_arg5)) := by
  show V0 m c (Proc.devRef .tc main_v24) = _
  rw [V0_eq, s5_v24, s4_v23, s3_v20, s3_keep_arg5, s2_c5, s2_keep_arg4, s2_keep_arg5, s1_keep_arg4, s1_keep_arg5, s0_keep_arg4, s0_keep_arg5]
  rfl

end Cert.KernelIdeal.KPre

end
-- ==== Proof.KArr.lean ====
/-
  The three arrays the kernel's region reads, as it finds them, named with their plain types: the supplied totals
  [100000,512], the attention weights [512,512] and the inventory [100000,500], all over the extended reals.
-/
import proofs.«123789_j74801150427802_2_alg».proof.Proof.Gen.KernelIdeal.Frame
import Idealize.ShloMosaic.PureOps.Ideal

noncomputable section

namespace Cert.KernelIdeal.KArr

open Cert.KernelIdeal Cert.KernelIdeal.Gen Idealize.ShloMosaic Idealize.ShloMosaic.TcCoe Idealize.SL.Sem

variable (m : (ℓ : Loc nD τ sig) → Buf (Elt Ideal) ℓ) (c : Dev nD)

/-- The supplied totals per firm and padded product, as the region finds them. -/
def sup : S100000x512.Idx → EReal := V m c main_v19
/-- The attention weights over the padded products, as the region finds them. -/
def att : S512x512.Idx → EReal := V m c main_v24
/-- The inventory, as the region finds it. -/
def inv : S100000x500.Idx → EReal := V m c main_arg6

theorem sup_eq : sup m c = V m c main_v19 := rfl
theorem att_eq : att m c = V m c main_v24 := rfl
theorem inv_eq : inv m c = V m c main_arg6 := rfl

end Cert.KernelIdeal.KArr

end
-- ==== Proof.KValue.lean ====
/-
  The two per-firm loss columns the kernel's region leaves, entry by entry.

  The region runs over 20 points; point `t` loads rows `5000 t … 5000 t + 4999` of the supplied totals [100000,512] and
  of the inventory [100000,500], and the whole attention table [512,512]; it multiplies the totals' block by the table,
  keeps the first 500 of the 512 columns (the consumed amounts), and stores two [5000,1] columns: ten times the row sums
  of the positive part of consumed − inventory, and one times the row sums of the consumed amounts.

  First the stored values at one row of a block, over arbitrary blocks: the matrix product at an index as a sum over
  the 512 contracted positions, the slice, the row sum, the column layout. Then each block as rows of its array (a
  block's row `y` at point `t` is row `5000 t + y` of the array), what a point writes back as the block of ONE function
  of the three arrays, the cover of each result by its twenty blocks (row `r` lies in block `r / 5000`), and so each
  result column after the run at firm `f`: `Spec.debtRow` / `Spec.consRow` of that firm's consumed amounts.
-/
import proofs.«123789_j74801150427802_2_alg».proof.Proof.Gen.KernelIdeal.Frame
import proofs.«123789_j74801150427802_2_alg».proof.Proof.Spec
import proofs.«123789_j74801150427802_2_alg».proof.Proof.KArr
import proofs.«123789_j74801150427802_2_alg».proof.Proof.KTail
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's matrix product at an index -/

theorem lhs0 (i : S5000x512.Idx) (q : dot_S5000x512_S512x512_S5000x512_1_0_0_1_n_n.contr.Idx) :
    (dot_S5000x512_S512x512_S5000x512_1_0_0_1_n_n.lhsIdx i q 0).val = (i 0).val := by
  unfold DotDims.lhsIdx
  rw [dif_neg (show ¬(0 : Fin S5000x512.rank) ∈ dot_S5000x512_S512x512_S5000x512_1_0_0_1_n_n.lhsBatch by decide), dif_pos (show (0 : Fin S5000x512.rank) ∈ dot_S5000x512_S512x512_S5000x512_1_0_0_1_n_n.lhsNonContracting by decide)]
  rfl
theorem lhs1 (i : S5000x512.Idx) (q : dot_S5000x512_S512x512_S5000x512_1_0_0_1_n_n.contr.Idx) :
    (dot_S5000x512_S512x512_S5000x512_1_0_0_1_n_n.lhsIdx i q 1).val = (q ⟨0, by decide⟩).val :=
  dot_S5000x512_S512x512_S5000x512_1_0_0_1_n_n.lhsIdx_val_of_single rfl i q
theorem rhs0 (i : S5000x512.Idx) (q : dot_S5000x512_S512x512_S5000x512_1_0_0_1_n_n.contr.Idx) :
    (dot_S5000x512_S512x512_S5000x512_1_0_0_1_n_n.rhsIdx i q 0).val = (q ⟨0, by decide⟩).val :=
  dot_S5000x512_S512x512_S5000x512_1_0_0_1_n_n.rhsIdx_val_of_single rfl i q
theorem rhs1 (i : S5000x512.Idx) (q : dot_S5000x512_S512x512_S5000x512_1_0_0_1_n_n.contr.Idx) :
    (dot_S5000x512_S512x512_S5000x512_1_0_0_1_n_n.rhsIdx i q 1).val = (i 1).val := by
  unfold DotDims.rhsIdx
  rw [dif_neg (show ¬(1 : Fin S512x512.rank) ∈ dot_S5000x512_S512x512_S5000x512_1_0_0_1_n_n.rhsBatch by decide), dif_pos (show (1 : Fin S512x512.rank) ∈ dot_S5000x512_S512x512_S5000x512_1_0_0_1_n_n.rhsNonContracting by decide)]
  rfl

/-- The product of a [5000,512] block with the [512,512] weights into the zero splat, at row `p` and column `n`:
    the sum over the 512 contracted positions. -/
theorem mm_apply (x0 : FVec Ideal S5000x512 .f32) (x2 : FVec Ideal S512x512 .f32) (p : Fin 5000) (n : Fin 512) :
    matmul dot_S5000x512_S512x512_S5000x512_1_0_0_1_n_n (some .fp32) x0 x2 (constant (F := Ideal) S5000x512 .f32 0x00000000#32) (ix2 p n)
      = ∑ q : Fin 512, x0 (ix2 p q) * x2 (ix2 q n) := by
  show FloatOps.matmul _ _ _ _ _ _ = _
  rw [Ideal.matmul_constant_zero_apply, ← Equiv.sum_comp (contrEquiv1 dot_S5000x512_S512x512_S5000x512_1_0_0_1_n_n 512 rfl rfl).symm]
  refine Finset.sum_congr rfl fun k _ => ?_
  have hk := contrEquiv1_symm_val dot_S5000x512_S512x512_S5000x512_1_0_0_1_n_n 512 rfl rfl k
  have el : dot_S5000x512_S512x512_S5000x512_1_0_0_1_n_n.lhsIdx (ix2 p n) ((contrEquiv1 dot_S5000x512_S512x512_S5000x512_1_0_0_1_n_n 512 rfl rfl).symm k) = ix2 p k := funext fun a => Fin.ext (by
    match a with
    | ⟨0, _⟩ => exact lhs0 _ _
    | ⟨1, _⟩ => exact (lhs1 _ _).trans hk)
  have er : dot_S5000x512_S512x512_S5000x512_1_0_0_1_n_n.rhsIdx (ix2 p n) ((contrEquiv1 dot_S5000x512_S512x512_S5000x512_1_0_0_1_n_n 512 rfl rfl).symm k) = ix2 k n := funext fun a => Fin.ext (by
    match a with
    | ⟨0, _⟩ => exact (rhs0 _ _).trans hk
    | ⟨1, _⟩ => exact rhs1 _ _)
  rw [el, er]

/-! ## The payloads at an index -/

/-- The consumed amounts the body computes, at row `p` and product `j`: the product's column of the padded table. -/
theorem pay1_apply (v0 : Vec Ideal S5000x512 .f32) (v2 : Vec Ideal S512x512 .f32) (p : Fin 5000) (j : Fin 500) :
    k0_pay1 (F := Ideal) v0 v2 (ix2 p j) = ∑ q : Fin 512, v0 (ix2 p q) * v2 (ix2 q (Cert.Spec.up j)) := by
  unfold k0_pay1
  refine (extractStridedSlice_apply _ _ _ (ix2 p j) (ix2 p (Cert.Spec.up j)) fun a => ?_).trans ?_
  · match a with
    | ⟨0, _⟩ => show p.val = 0 + p.val; omega
    | ⟨1, _⟩ => show (Cert.Spec.up j).val = 0 + j.val; rw [Cert.Spec.up_val]; omega
  · rw [shapeCast_self, shapeCast_self]
    exact mm_apply v0 v2 p (Cert.Spec.up j)

/-- A [5000] vector kept as a [5000,1] column reads its row. -/
theorem column_apply (x : FVec Ideal S5000 .f32) (p : Fin 5000) :
    shapeCast S5000x1 x shapeCasts_S5000_S5000x1 (ix2 p (0 : Fin 1)) = x (ix1 p) := by
  refine shapeCast_apply _ _ (ix2 p (0 : Fin 1)) (ix1 p) ?_
  rw [Shape.rowMajor_val_one, Shape.rowMajor_val_two]
  show p.val = p.val * 1 + 0
  omega

/-- The sum of a [5000,500] block over its second axis, at row `p`: the sum of that row's 500 entries. -/
theorem rowsum_apply (x : FVec Ideal S5000x500 .f32) (p : Fin 5000) :
    multiReduction .add [1] S5000 x 0x00000000#32 reduces_S5000x500_S5000 (.inl rfl) rfl (ix1 p) = ∑ k : Fin 500, x (ix2 p k) := by
  refine (Ideal.multiReduction_add_single x 0x00000000#32 reduces_S5000x500_S5000 (.inl rfl) rfl (ix1 p)).trans ?_
  exact Finset.sum_congr rfl fun k _ => congrArg x (funext fun a => Fin.ext (by match a with | ⟨0, _⟩ => rfl | ⟨1, _⟩ => rfl))

/-- The debt block the body stores, at row `p`: the debt loss of that row's consumed amounts against its inventory. -/
theorem pay2_apply (v0 : Vec Ideal S5000x512 .f32) (v2 : Vec Ideal S512x512 .f32) (v6 : Vec Ideal S5000x500 .f32) (p : Fin 5000) :
    k0_pay2 (F := Ideal) v0 v2 v6 (ix2 p (0 : Fin 1)) =
      Cert.Spec.debtRow (fun j : Fin 500 => ∑ q : Fin 512, v0 (ix2 p q) * v2 (ix2 q (Cert.Spec.up j))) (fun j : Fin 500 => v6 (ix2 p j)) := by
  unfold k0_pay2 Cert.Spec.debtRow Cert.Spec.wDebt
  rw [mulf_apply, broadcast_apply, column_apply]
  refine congrArg (Ideal.ofBits .f32 0x41200000#32 * ·) ?_
  refine (rowsum_apply _ p).trans ?_
  refine Finset.sum_congr rfl fun k _ => ?_
  rw [maximumf_apply, subf_apply, broadcast_apply, pay1_apply]
  exact congrArg (max _ ·) Ideal.ofBits_zero_f32

/-- The consumption block the body stores, at row `p`: the consumption loss of that row's consumed amounts. -/
theorem pay3_apply (v0 : Vec Ideal S5000x512 .f32) (v2 : Vec Ideal S512x512 .f32) (p : Fin 5000) :
    k0_pay3 (F := Ideal) v0 v2 (ix2 p (0 : Fin 1)) =
      Cert.Spec.consRow (fun j : Fin 500 => ∑ q : Fin 512, v0 (ix2 p q) * v2 (ix2 q (Cert.Spec.up j))) := by
  unfold k0_pay3 Cert.Spec.consRow Cert.Spec.wCons
  rw [mulf_apply, broadcast_apply, column_apply]
  refine congrArg (Ideal.ofBits .f32 0x3F800000#32 * ·) ?_
  refine (rowsum_apply _ p).trans ?_
  exact Finset.sum_congr rfl fun k _ => pay1_apply v0 v2 p k

/-! ## From blocks to the arrays -/

variable (m : (ℓ : Loc nD τ sig) → Buf (Elt Ideal) ℓ)

theorem hz : (![0, 0] : Fin 2 → Nat) = fun _ => 0 := funext fun a => by fin_cases a <;> rfl

/-- The printed index maps over the grid: the three row-blocked windows and the two results sit at block row `t`,
    block column 0; the weights' window stays at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Block `t` of the supplied totals' window, read off any [100000,512] array: rows `5000 t … 5000 t + 4999`. -/
theorem read0_apply (X : S100000x512.Idx → EReal) (t : Fin cfg0.N) (y : S5000x512.Idx) (k : S100000x512.Idx)
    (h0 : (k 0).val = t.val * 5000 + (y 0).val) (h1 : (k 1).val = (y 1).val) :
    (((cfg0.win 0).blk t).view.read (Elt Ideal) X : S5000x512.Idx → EReal) y = X k := by
  obtain ⟨e0, e1, -⟩ := idx_facts t
  show X (((cfg0.win 0).blk t).view.emb y) = X k
  refine congrArg X (funext fun a => Fin.ext ?_)
  match a with
  | ⟨0, _⟩ => show win0_0.index t (0 : Fin 2) * 5000 + 1 * (y 0).val = (k 0).val; omega
  | ⟨1, _⟩ => show win0_0.index t (1 : Fin 2) * 512 + 1 * (y 1).val = (k 1).val; omega

/-- Block `t` of the inventory's window, read off any [100000,500] array: the same rows. -/
theorem read1_apply (X : S100000x500.Idx → EReal) (t : Fin cfg0.N) (y : S5000x500.Idx) (k : S100000x500.Idx)
    (h0 : (k 0).val = t.val * 5000 + (y 0).val) (h1 : (k 1).val = (y 1).val) :
    (((cfg0.win 1).blk t).view.read (Elt Ideal) X : S5000x500.Idx → EReal) y = X k := by
  obtain ⟨-, -, e0, e1, -⟩ := idx_facts t
  show X (((cfg0.win 1).blk t).view.emb y) = X k
  refine congrArg X (funext fun a => Fin.ext ?_)
  match a with
  | ⟨0, _⟩ => show win0_1.index t (0 : Fin 2) * 5000 + 1 * (y 0).val = (k 0).val; omega
  | ⟨1, _⟩ => show win0_1.index t (1 : Fin 2) * 500 + 1 * (y 1).val = (k 1).val; omega

/-- Block `t` of the weights' window, read off any [512,512] array: the whole array. -/
theorem read2_apply (X : S512x512.Idx → EReal) (t : Fin cfg0.N) (y : S512x512.Idx) :
    (((cfg0.win 2).blk t).view.read (Elt Ideal) X : S512x512.Idx → EReal) y = X y := by
  obtain ⟨-, -, -, -, e0, e1, -⟩ := idx_facts t
  show X (((cfg0.win 2).blk t).view.emb y) = X y
  refine congrArg X (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The input blocks at point `t` are the three arrays read through the windows' blocks. -/
theorem iblk0_eq (c : Dev nD) (t : Fin cfg0.N) :
    iblk m c 0 t = ((cfg0.win 0).blk t).view.read (Elt Ideal) (KArr.sup m c) := by
  unfold iblk KArr.sup
  rfl

theorem iblk1_eq (c : Dev nD) (t : Fin cfg0.N) :
    iblk m c 1 t = ((cfg0.win 1).blk t).view.read (Elt Ideal) (KArr.inv m c) := by
  unfold iblk KArr.inv
  rfl

theorem iblk2_eq (c : Dev nD) (t : Fin cfg0.N) :
    iblk m c 2 t = ((cfg0.win 2).blk t).view.read (Elt Ideal) (KArr.att m c) := by
  unfold iblk KArr.att
  rfl

/-- What the body leaves in the debt window's buffer, entry by entry, from the blocks it loaded. -/
theorem out3_apply (x0 : Vec Ideal S5000x512 .f32) (x1 : Vec Ideal S5000x500 .f32) (x2 : Vec Ideal S512x512 .f32) (y : S5000x1.Idx) :
    out0_3 (F := Ideal) x0 x1 x2 y =
      Cert.Spec.debtRow (fun j : Fin 500 => ∑ q : Fin 512, x0 (ix2 (⟨(y 0).val, idx2_lt0 y⟩ : Fin 5000) q) * x2 (ix2 q (Cert.Spec.up j)))
        (fun j : Fin 500 => x1 (ix2 (⟨(y 0).val, idx2_lt0 y⟩ : Fin 5000) j)) := by
  obtain ⟨p, z, rfl⟩ : ∃ (p : Fin 5000) (z : Fin 1), y = ix2 p z := ⟨y 0, y 1, eq_ix2 y⟩
  obtain rfl : z = 0 := Subsingleton.elim _ _
  unfold out0_3
  rw [View.canon_unit_zero hz]
  simp only [View.ld_unit_zero (S := S5000x512) hz, View.ld_unit_zero (S := S512x512) hz, View.ld_unit_zero (S := S5000x500) hz]
  exact pay2_apply x0 x2 x1 p

/-- What the body leaves in the consumption window's buffer, entry by entry. -/
theorem out4_apply (x0 : Vec Ideal S5000x512 .f32) (x1 : Vec Ideal S5000x500 .f32) (x2 : Vec Ideal S512x512 .f32) (y : S5000x1.Idx) :
    out0_4 (F := Ideal) x0 x1 x2 y =
      Cert.Spec.consRow (fun j : Fin 500 => ∑ q : Fin 512, x0 (ix2 (⟨(y 0).val, idx2_lt0 y⟩ : Fin 5000) q) * x2 (ix2 q (Cert.Spec.up j))) := by
  obtain ⟨p, z, rfl⟩ : ∃ (p : Fin 5000) (z : Fin 1), y = ix2 p z := ⟨y 0, y 1, eq_ix2 y⟩
  obtain rfl : z = 0 := Subsingleton.elim _ _
  unfold out0_4
  rw [View.canon_unit_zero hz]
  simp only [View.ld_unit_zero (S := S5000x512) hz, View.ld_unit_zero (S := S512x512) hz]
  exact pay3_apply x0 x2 p

/-- The debt result as one function of the arrays the region reads. -/
def debtArr (c : Dev nD) : S100000x1.Idx → EReal := fun i =>
  Cert.Spec.debtRow
    (fun j : Fin 500 => ∑ q : Fin 512, KArr.sup m c (ix2 (⟨(i 0).val, idx2_lt0 i⟩ : Fin 100000) q) * KArr.att m c (ix2 q (Cert.Spec.up j)))
    (fun j : Fin 500 => KArr.inv m c (ix2 (⟨(i 0).val, idx2_lt0 i⟩ : Fin 100000) j))

/-- The consumption result as one function of the arrays the region reads. -/
def consArr (c : Dev nD) : S100000x1.Idx → EReal := fun i =>
  Cert.Spec.consRow
    (fun j : Fin 500 => ∑ q : Fin 512, KArr.sup m c (ix2 (⟨(i 0).val, idx2_lt0 i⟩ : Fin 100000) q) * KArr.att m c (ix2 q (Cert.Spec.up j)))

/-- The debt window's buffer after the body at point `t`, when the blocks are three arrays read through the windows:
    row `y` holds the debt loss of firm `5000 t + y`. -/
theorem out3_blocks (A : S100000x512.Idx → EReal) (B : S100000x500.Idx → EReal) (W : S512x512.Idx → EReal)
    (t : Fin cfg0.N) (y : S5000x1.Idx) (f : Fin 100000) (hf : f.val = t.val * 5000 + (y 0).val) :
    out0_3 (F := Ideal) (((cfg0.win 0).blk t).view.read (Elt Ideal) A) (((cfg0.win 1).blk t).view.read (Elt Ideal) B)
        (((cfg0.win 2).blk t).view.read (Elt Ideal) W) y
      = Cert.Spec.debtRow (fun j : Fin 500 => ∑ q : Fin 512, A (ix2 f q) * W (ix2 q (Cert.Spec.up j))) (fun j : Fin 500 => B (ix2 f j)) := by
  refine (out3_apply _ _ _ y).trans ?_
  refine congrArg₂ Cert.Spec.debtRow (funext fun j => Finset.sum_congr rfl fun q _ => ?_) (funext fun j => ?_)
  · exact congrArg₂ (· * ·) (read0_apply A t _ (ix2 f q) hf rfl) (read2_apply W t _)
  · exact read1_apply B t _ (ix2 f j) hf rfl

/-- The consumption window's buffer after the body at point `t`, likewise. -/
theorem out4_blocks (A : S100000x512.Idx → EReal) (B : S100000x500.Idx → EReal) (W : S512x512.Idx → EReal)
    (t : Fin cfg0.N) (y : S5000x1.Idx) (f : Fin 100000) (hf : f.val = t.val * 5000 + (y 0).val) :
    out0_4 (F := Ideal) (((cfg0.win 0).blk t).view.read (Elt Ideal) A) (((cfg0.win 1).blk t).view.read (Elt Ideal) B)
        (((cfg0.win 2).blk t).view.read (Elt Ideal) W) y
      = Cert.Spec.consRow (fun j : Fin 500 => ∑ q : Fin 512, A (ix2 f q) * W (ix2 q (Cert.Spec.up j))) := by
  refine (out4_apply _ _ _ y).trans ?_
  refine congrArg Cert.Spec.consRow (funext fun j => Finset.sum_congr rfl fun q _ => ?_)
  exact congrArg₂ (· * ·) (read0_apply A t _ (ix2 f q) hf rfl) (read2_apply W t _)

/-- Block `t` of a result window, read off any [100000,1] array, entry by entry. -/
theorem read3_apply (G : S100000x1.Idx → EReal) (t : Fin cfg0.N) (y : ((cfg0.win 3).xblock (grid0.coords t)).Idx) :
    ((cfg0.win 3).blk t).view.read (Elt Ideal) G y = G (((cfg0.win 3).blk t).view.emb y) := rfl
theorem read4_apply (G : S100000x1.Idx → EReal) (t : Fin cfg0.N) (y : ((cfg0.win 4).xblock (grid0.coords t)).Idx) :
    ((cfg0.win 4).blk t).view.read (Elt Ideal) G y = G (((cfg0.win 4).blk t).view.emb y) := rfl

/-- WHAT POINT `t` WRITES BACK to the debt result is block `t` of `debtArr`. -/
theorem flushed3_eq (c : Dev nD) (t : Fin cfg0.N) :
    (dats m 0 c).flushed 3 t = ((cfg0.win 3).blk t).view.read (Elt Ideal) (debtArr m c) := by
  show (cfg0.win 3).cut (grid0.coords t) ((dats m 0 c).after 3 t) = _
  rw [after0_3, iblk0_eq, iblk1_eq, iblk2_eq]
  funext y
  obtain ⟨-, -, -, -, -, -, e0, e1, -⟩ := idx_facts t
  have hrow : ((((cfg0.win 3).blk t).view.emb y) 0).val = t.val * 5000 + (y 0).val := by
    show win0_3.index t (0 : Fin 2) * 5000 + 1 * (y 0).val = _
    omega
  refine Eq.trans ?_ (read3_apply (debtArr m c) t y).symm
  refine (out3_blocks (KArr.sup m c) (KArr.inv m c) (KArr.att m c) t ((cfg0.win 3).xinj (grid0.coords t) y)
    ⟨((((cfg0.win 3).blk t).view.emb y) 0).val, idx2_lt0 (((cfg0.win 3).blk t).view.emb y)⟩ hrow).trans ?_
  unfold debtArr
  rfl

/-- WHAT POINT `t` WRITES BACK to the consumption result is block `t` of `consArr`. -/
theorem flushed4_eq (c : Dev nD) (t : Fin cfg0.N) :
    (dats m 0 c).flushed 4 t = ((cfg0.win 4).blk t).view.read (Elt Ideal) (consArr m c) := by
  show (cfg0.win 4).cut (grid0.coords t) ((dats m 0 c).after 4 t) = _
  rw [after0_4, iblk0_eq, iblk1_eq, iblk2_eq]
  funext y
  obtain ⟨-, -, -, -, -, -, -, -, e0, e1⟩ := idx_facts t
  have hrow : ((((cfg0.win 4).blk t).view.emb y) 0).val = t.val * 5000 + (y 0).val := by
    show win0_4.index t (0 : Fin 2) * 5000 + 1 * (y 0).val = _
    omega
  refine Eq.trans ?_ (read4_apply (consArr m c) t y).symm
  refine (out4_blocks (KArr.sup m c) (KArr.inv m c) (KArr.att m c) t ((cfg0.win 4).xinj (grid0.coords t) y)
    ⟨((((cfg0.win 4).blk t).view.emb y) 0).val, idx2_lt0 (((cfg0.win 4).blk t).view.emb y)⟩ hrow).trans ?_
  unfold consArr
  rfl

/-- An index of the debt result is in point `t`'s block iff each coordinate is in the block's range on its axis. -/
theorem mem_blk3 (t : Fin cfg0.N) (i : S100000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v25_0).slice (win0_3.rect t)).set ↔ _
  rw [View.set_slice_whole, Rect.mem_set_unit]
  exact Iff.rfl

/-- The same for the consumption result. -/
theorem mem_blk4 (t : Fin cfg0.N) (i : S100000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v25_1).slice (win0_4.rect t)).set ↔ _
  rw [View.set_slice_whole, Rect.mem_set_unit]
  exact Iff.rfl

/-- The point covering row `r` is `r / 5000`. -/
theorem point_of_row (i : S100000x1.Idx) : ∃ t : Fin cfg0.N, t.val = (i 0).val / 5000 :=
  ⟨⟨(i 0).val / 5000, lt_of_lt_of_eq (by have := idx2_lt0 i; omega : (i 0).val / 5000 < 20) N_0.symm⟩, rfl⟩

/-- The twenty blocks of the debt result cover it. -/
theorem cover3 (i : S100000x1.Idx) : ∃ t : Fin cfg0.N, (cfg0.win 3).flush t = true ∧ i ∈ ((cfg0.win 3).blk t).view.set := by
  have hi0 : (i 0).val < 100000 := idx2_lt0 i
  have hi1 : (i 1).val < 1 := idx2_lt1 i
  obtain ⟨t, ht⟩ := point_of_row i
  refine ⟨t, flush0_3 t, ?_⟩
  rw [mem_blk3]
  obtain ⟨-, -, -, -, -, -, e0, e1, -⟩ := idx_facts t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 1 ≤ (i 1).val ∧ (i 1).val < win0_3.index t (1 : Fin 2) * 1 + 1; omega

/-- The twenty blocks of the consumption result cover it. -/
theorem cover4 (i : S100000x1.Idx) : ∃ t : Fin cfg0.N, (cfg0.win 4).flush t = true ∧ i ∈ ((cfg0.win 4).blk t).view.set := by
  have hi0 : (i 0).val < 100000 := idx2_lt0 i
  have hi1 : (i 1).val < 1 := idx2_lt1 i
  obtain ⟨t, ht⟩ := point_of_row i
  refine ⟨t, flush0_4 t, ?_⟩
  rw [mem_blk4]
  obtain ⟨-, -, -, -, -, -, -, -, e0, e1⟩ := idx_facts t
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 1 ≤ (i 1).val ∧ (i 1).val < win0_4.index t (1 : Fin 2) * 1 + 1; omega

/-- THE DEBT RESULT after the run: the debt loss of every firm. -/
theorem debt_arr (c : Dev nD) : (dats m 0 c).arrAt 3 cfg0.N = debtArr m c :=
  (dats m 0 c).arrAt_eq_of_cover 3 (debtArr m c) (fun t _ => flushed3_eq m c t) cover3

/-- THE CONSUMPTION RESULT after the run: the consumption loss of every firm. -/
theorem cons_arr (c : Dev nD) : (dats m 0 c).arrAt 4 cfg0.N = consArr m c :=
  (dats m 0 c).arrAt_eq_of_cover 4 (consArr m c) (fun t _ => flushed4_eq m c t) cover4

/-- The debt column after the run, firm by firm. -/
theorem debt_final (c : Dev nD) (f : Fin 100000) :
    KTail.debtCol m c (ix2 f (0 : Fin 1)) =
      Cert.Spec.debtRow
        (fun j : Fin 500 => ∑ q : Fin 512, KArr.sup m c (ix2 f q) * KArr.att m c (ix2 q (Cert.Spec.up j)))
        (fun j : Fin 500 => KArr.inv m c (ix2 f j)) := by
  unfold KTail.debtCol
  exact congrFun (debt_arr m c) (ix2 f (0 : Fin 1))

/-- The consumption column after the run, firm by firm. -/
theorem cons_final (c : Dev nD) (f : Fin 100000) :
    KTail.consCol m c (ix2 f (0 : Fin 1)) =
      Cert.Spec.consRow
        (fun j : Fin 500 => ∑ q : Fin 512, KArr.sup m c (ix2 f q) * KArr.att m c (ix2 q (Cert.Spec.up j))) := by
  unfold KTail.consCol
  exact congrFun (cons_arr m c) (ix2 f (0 : Fin 1))

end Cert.KernelIdeal.KValue

end
-- ==== Proof.LibScatterPairs.lean ====
/-
  A scatter-add of scalar updates into a matrix, each update addressed by a (row, column) pair of signed words,
  read at one element.

  This is what `zeros((N, M)).at[r, c].add(v)` lowers to for index vectors `r c : [E]` and updates `v : [E]`:
  a scatter with an add body over the operand `[N, M]`, scatter indices `[E, 2]` (the index vector on axis 1,
  component 0 the row and component 1 the column), scalar updates `[E]`, no window axes, both operand axes
  inserted, and the index components sent to the operand axes in order. Update `e` lands at `(n, k)` exactly when
  its two index words, read as signed integers, are `n` and `k`; an update whose pair lies outside the matrix is
  dropped. Over the extended reals the element at `(n, k)` is therefore the operand's element plus the sum of the
  updates whose pair is `(n, k)`.

  Everything is stated over variable extents `N M E`, so nothing here ever enumerates an axis.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.ScatterPairs

open Idealize.ShloMosaic Idealize.ShloMosaic.ValueIdx

/-- The dimension numbers of a scatter of scalar updates `[E]` into `[N, M]` by index pairs `[E, 2]`: no update
    window axes, inserted window axes `[0, 1]`, scatter-dims-to-operand-dims `[0, 1]`, index vector on axis 1. -/
abbrev pairDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Both operand axes are inserted, so an update has no window coordinate on either. -/
theorem window_pairs {N M E : Nat}
    (wf : ScatterDims.WF ⟨2, ![N, M]⟩ ⟨2, ![E, 2]⟩ ⟨1, ![E]⟩ [] [0, 1] [0, 1] 1)
    (j : (⟨1, ![E]⟩ : Shape).Idx) (a : Fin 2) :
    (pairDims N M E wf).window j a = 0 := by
  unfold ScatterDims.window
  refine dif_neg ?_
  show ¬ a ∈ (List.finRange 2).filter (fun b => decide (b ∉ ([0, 1] : List (Fin 2))))
  revert a; decide

/-- The start of update `e` on the row axis is component 0 of its index pair, read signed. -/
theorem start_pairs_zero {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) :
    (pairDims N M E wf).start (ix1 e) idx 0 = (idx (ix2 e 0)).toInt := by
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl

/-- The start of update `e` on the column axis is component 1 of its index pair, read signed. -/
theorem start_pairs_one {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) :
    (pairDims N M E wf).start (ix1 e) idx 1 = (idx (ix2 e 1)).toInt := by
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl

/-- WHERE AN UPDATE LANDS: update `e` lands at `(n, k)` exactly when its index pair, read signed, is `(n, k)`. -/
theorem resultIdx?_pairs {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (n : Fin N) (k : Fin M) :
    (pairDims N M E wf).resultIdx? (ix1 e) idx = some (ix2 n k) ↔
      (idx (ix2 e 0)).toInt = (n.val : Int) ∧ (idx (ix2 e 1)).toInt = (k.val : Int) := by
  have hn := n.isLt
  have hk := k.isLt
  unfold ScatterDims.resultIdx?
  constructor
  · intro h
    split at h
    · next hin =>
      have hf := Option.some.inj h
      have h0 : ((pairDims N M E wf).start (ix1 e) idx 0 + ((pairDims N M E wf).window (ix1 e) 0 : Nat)).toNat = n.val :=
        congrArg (fun i : (⟨2, ![N, M]⟩ : Shape).Idx => (i 0).val) hf
      have h1 : ((pairDims N M E wf).start (ix1 e) idx 1 + ((pairDims N M E wf).window (ix1 e) 1 : Nat)).toNat = k.val :=
        congrArg (fun i : (⟨2, ![N, M]⟩ : Shape).Idx => (i 1).val) hf
      have b0 := (hin 0).1
      have b1 := (hin 1).1
      rw [window_pairs, start_pairs_zero] at h0 b0
      rw [window_pairs, start_pairs_one] at h1 b1
      constructor <;> omega
    · exact absurd h (by simp)
  · rintro ⟨h0, h1⟩
    have hin : ∀ a : Fin 2, 0 ≤ (pairDims N M E wf).start (ix1 e) idx a + ((pairDims N M E wf).window (ix1 e) a : Nat) ∧
        (pairDims N M E wf).start (ix1 e) idx a + ((pairDims N M E wf).window (ix1 e) a : Nat)
          < ((⟨2, ![N, M]⟩ : Shape).size a : Nat) := by
      intro a
      match a with
      | ⟨0, _⟩ =>
        show 0 ≤ (pairDims N M E wf).start (ix1 e) idx 0 + ((pairDims N M E wf).window (ix1 e) 0 : Nat) ∧
          (pairDims N M E wf).start (ix1 e) idx 0 + ((pairDims N M E wf).window (ix1 e) 0 : Nat) < (N : Int)
        rw [window_pairs, start_pairs_zero, h0]; omega
      | ⟨1, _⟩ =>
        show 0 ≤ (pairDims N M E wf).start (ix1 e) idx 1 + ((pairDims N M E wf).window (ix1 e) 1 : Nat) ∧
          (pairDims N M E wf).start (ix1 e) idx 1 + ((pairDims N M E wf).window (ix1 e) 1 : Nat) < (M : Int)
        rw [window_pairs, start_pairs_one, h1]; omega
    rw [dif_pos hin]
    congr 1
    funext a; refine Fin.ext ?_
    match a with
    | ⟨0, _⟩ =>
      show ((pairDims N M E wf).start (ix1 e) idx 0 + ((pairDims N M E wf).window (ix1 e) 0 : Nat)).toNat = n.val
      rw [window_pairs, start_pairs_zero, h0]; omega
    | ⟨1, _⟩ =>
      show ((pairDims N M E wf).start (ix1 e) idx 1 + ((pairDims N M E wf).window (ix1 e) 1 : Nat)).toNat = k.val
      rw [window_pairs, start_pairs_one, h1]; omega

/-- THE SCATTER-ADD READ AT `(n, k)`: the operand's element plus the sum of the updates whose index pair, read
    signed, is `(n, k)`. -/
theorem scatterAdd_pairs_apply {N M E w : Nat} {φ : FTy}
    (wf : ScatterDims.WF ⟨2, ![N, M]⟩ ⟨2, ![E, 2]⟩ ⟨1, ![E]⟩ [] [0, 1] [0, 1] 1)
    (x : FVec Ideal ⟨2, ![N, M]⟩ φ) (idx : IVec ⟨2, ![E, 2]⟩ w) (upd : FVec Ideal ⟨1, ![E]⟩ φ)
    (n : Fin N) (k : Fin M) :
    Host.scatterAdd (F := Ideal) (pairDims N M E wf) x idx upd (ix2 n k) =
      x (ix2 n k) + ∑ j ∈ Finset.univ.filter (fun j : (⟨1, ![E]⟩ : Shape).Idx =>
          (idx (ix2 (j 0) 0)).toInt = (n.val : Int) ∧ (idx (ix2 (j 0) 1)).toInt = (k.val : Int)), upd j := by
  show Ideal.hostScatterAdd (pairDims N M E wf) x idx upd (ix2 n k) = _
  unfold Ideal.hostScatterAdd
  congr 1
  refine Finset.sum_congr (Finset.filter_congr fun j _ => ?_) fun _ _ => rfl
  have hj : j = ix1 (j 0) := eq_ix1 j
  have h := resultIdx?_pairs wf idx (j 0) n k
  conv_lhs => rw [hj]
  exact h

/-- The same for any dimension-number record with those four lists: such a record IS `pairDims`. -/
theorem scatterAdd_pairs_apply_of_fields {N M E w : Nat} {φ : FTy}
    (d : ScatterDims ⟨2, ![N, M]⟩ ⟨2, ![E, 2]⟩ ⟨1, ![E]⟩)
    (huw : d.updateWindowDims = []) (hiw : d.insertedWindowDims = [0, 1])
    (hsd : d.scatterDimsToOperandDims = [0, 1]) (hiv : d.indexVectorDim = 1)
    (x : FVec Ideal ⟨2, ![N, M]⟩ φ) (idx : IVec ⟨2, ![E, 2]⟩ w) (upd : FVec Ideal ⟨1, ![E]⟩ φ)
    (n : Fin N) (k : Fin M) :
    Host.scatterAdd (F := Ideal) d x idx upd (ix2 n k) =
      x (ix2 n k) + ∑ j ∈ Finset.univ.filter (fun j : (⟨1, ![E]⟩ : Shape).Idx =>
          (idx (ix2 (j 0) 0)).toInt = (n.val : Int) ∧ (idx (ix2 (j 0) 1)).toInt = (k.val : Int)), upd j := by
  obtain ⟨uw, iw, sd, iv, wf⟩ := d
  dsimp only at huw hiw hsd hiv
  subst huw hiw hsd hiv
  exact scatterAdd_pairs_apply wf x idx upd n k

end Cert.ScatterPairs

end
-- ==== Proof.Scatter.lean ====
/-
  The two scatter-adds agree on the real product columns.

  Both programs build the supplied totals per firm and product as `zeros((F, W)).at[src, prod - 100000].add(amt)`:
  a scatter-add of the clipped amounts into a zero table, addressed by a (firm, product) pair of signed words per
  edge, each word first wrapped the way jnp wraps a negative index (the firm word by 100000 on both sides, the
  product word by the table's width). The kernel's table is 512 wide, the reference's 500 wide.

  When every product id lies in [100000, 100500), the product word `prod - 100000` lies in [0, 500): it is
  non-negative, so neither program wraps it, and it is the same word on both sides. The firm word is the same
  term on both sides whatever its value. Hence an edge is sent to entry (f, q), q < 500, of the wide table
  exactly when it is sent to (f, q) of the narrow one; the amounts are the same function; and both tables start
  from zero. The element at (f, q) is the starting value plus the sum of the amounts of the edges sent there
  (LibScatterPairs), so the two elements are equal. Edges sent to columns 500..511 of the wide table, or outside
  either table, play no part: the statement only reads columns below 500, and a dropped edge is dropped by both.

  Nothing here enumerates an axis of extent 4000000 or 100000: the edge, the firm and the product stay symbolic,
  and the two sums are compared term by term over one index set, never evaluated.
-/
import proofs.«123789_j74801150427802_2_alg».proof.Proof.LibScatterPairs
import proofs.«123789_j74801150427802_2_alg».proof.Proof.KHost
import proofs.«123789_j74801150427802_2_alg».proof.Proof.Spec
import proofs.«123789_j74801150427802_2_alg».proof.Proof.Gen.ReferenceIdeal.Read

noncomputable section

open scoped BigOperators

namespace Cert.Bridge

open Idealize.ShloMosaic Idealize.ShloMosaic.ValueIdx Idealize.ShloMosaic.TcCoe
open Cert.ScatterPairs

/-! ## The two records are the pair-scatter's dimension numbers -/

theorem kernel_dims :
    Cert.KernelIdeal.scatter_S100000x512_S4000000x2_S4000000_n_01_01_1
      = pairDims 100000 512 4000000 Cert.KernelIdeal.Facts₀.scatter_S100000x512_S4000000x2_S4000000_n_01_01_1_wf := rfl

theorem reference_dims :
    Cert.ReferenceIdeal.scatter_S100000x500_S4000000x2_S4000000_n_01_01_1
      = pairDims 100000 500 4000000 Cert.ReferenceIdeal.Facts₀.scatter_S100000x500_S4000000x2_S4000000_n_01_01_1_wf := rfl

/-! ## Word arithmetic -/

theorem prod_toInt (w : BitVec 32) (h : 100000 ≤ w.toInt ∧ w.toInt < 100500) :
    (w - 100000#32).toInt = w.toInt - 100000 := by
  have hc : (100000#32 : BitVec 32).toInt = 100000 := by decide
  rw [BitVec.toInt_sub, hc]
  exact Int.bmod_eq_of_le (by omega) (by omega)

theorem prod_not_neg (w : BitVec 32) (h : 100000 ≤ w.toInt ∧ w.toInt < 100500) :
    IntOp.cmpi .slt (w - 100000#32) 0#32 = 0#1 := by
  have hz : (0#32 : BitVec 32).toInt = 0 := by decide
  have hp := prod_toInt w h
  show BitVec.ofBool ((w - 100000#32).slt 0#32) = 0#1
  have : (w - 100000#32).slt 0#32 = false := by
    rw [BitVec.slt, hp, hz]; exact decide_eq_false (by omega)
  rw [this]; rfl

/-! ## The amounts and the firm column are one term on both sides -/

theorem amt_eq (x3 : (⟨Cert.KernelIdeal.S4000000x4, .f32⟩ : BufTy).Contents (Elt Ideal)) :
    Cert.KernelIdeal.KHost.amt (F := Ideal) x3 = Cert.ReferenceIdeal.Read.val_main_v4 (F := Ideal) x3 := rfl

theorem row_eq (x0 : (⟨Cert.KernelIdeal.S4000000, .i32⟩ : BufTy).Contents (Elt Ideal)) :
    Cert.KernelIdeal.KHost.rowIdx (F := Ideal) x0 = Cert.ReferenceIdeal.Read.val_main_v10 (F := Ideal) x0 := rfl

/-! ## Two columns side by side, read at one entry -/

section Columns
variable {α : Type}

/-- A column `[E]` broadcast to `[E, 1]`, read at `(e, 0)`. -/
theorem col_apply (h : Cert.KernelIdeal.S4000000.BroadcastsInDim Cert.KernelIdeal.S4000000x1 ![0])
    (c : Cert.KernelIdeal.S4000000.Idx → α) (e : Fin 4000000) :
    broadcastInDim Cert.KernelIdeal.S4000000x1 ![0] h c (ix2 e 0) = c (ix1 e) :=
  broadcastInDim_apply _ h c (ix2 e 0) (ix1 e) (fun a => match a with
    | ⟨0, _⟩ => by show e.val = if (4000000 : Nat) = 1 then 0 else e.val; rw [if_neg (by decide)])

/-- Two `[E, 1]` columns joined along axis 1, read at `(e, 0)`: the first column. -/
theorem pair_apply_zero (h : Shape.Concatenates [Cert.KernelIdeal.S4000000x1, Cert.KernelIdeal.S4000000x1] Cert.KernelIdeal.S4000000x2 1)
    (a b : Cert.KernelIdeal.S4000000x1.Idx → α) (e : Fin 4000000) :
    concatenate Cert.KernelIdeal.S4000000x2 1 [⟨Cert.KernelIdeal.S4000000x1, a⟩, ⟨Cert.KernelIdeal.S4000000x1, b⟩] h (ix2 e 0) = a (ix2 e 0) :=
  concatenate_pair_apply_left 1 a b h (ix2 e 0) rfl (ix2 e 0) (fun b => match b with
    | ⟨0, _⟩ => rfl
    | ⟨1, _⟩ => rfl)

/-- Two `[E, 1]` columns joined along axis 1, read at `(e, 1)`: the second column. -/
theorem pair_apply_one (h : Shape.Concatenates [Cert.KernelIdeal.S4000000x1, Cert.KernelIdeal.S4000000x1] Cert.KernelIdeal.S4000000x2 1)
    (a b : Cert.KernelIdeal.S4000000x1.Idx → α) (e : Fin 4000000) :
    concatenate Cert.KernelIdeal.S4000000x2 1 [⟨Cert.KernelIdeal.S4000000x1, a⟩, ⟨Cert.KernelIdeal.S4000000x1, b⟩] h (ix2 e 1) = b (ix2 e 0) :=
  concatenate_pair_apply_right 1 a b h (ix2 e 1) rfl rfl (ix2 e 0) (fun b hb => match b, hb with
    | ⟨0, _⟩, _ => rfl
    | ⟨1, _⟩, hb => absurd rfl hb) rfl

end Columns

/-! ## The index columns at one edge -/

section Edges
variable (x0 x2 : (⟨Cert.KernelIdeal.S4000000, .i32⟩ : BufTy).Contents (Elt Ideal)) (e : Fin 4000000)

theorem kernel_row : Cert.KernelIdeal.KHost.scatIdx (F := Ideal) x0 x2 (ix2 e 0)
    = Cert.KernelIdeal.KHost.rowIdx (F := Ideal) x0 (ix1 e) := by
  unfold Cert.KernelIdeal.KHost.scatIdx
  rw [pair_apply_zero, col_apply]

theorem kernel_col : Cert.KernelIdeal.KHost.scatIdx (F := Ideal) x0 x2 (ix2 e 1)
    = Cert.KernelIdeal.KHost.colIdx (F := Ideal) x2 (ix1 e) := by
  unfold Cert.KernelIdeal.KHost.scatIdx
  rw [pair_apply_one, col_apply]

theorem reference_row : Cert.ReferenceIdeal.Read.val_main_v18 (F := Ideal) x0 x2 (ix2 e 0)
    = Cert.ReferenceIdeal.Read.val_main_v10 (F := Ideal) x0 (ix1 e) := by
  unfold Cert.ReferenceIdeal.Read.val_main_v18 Cert.ReferenceIdeal.Read.val_main_v16
  rw [pair_apply_zero, col_apply]

theorem reference_col : Cert.ReferenceIdeal.Read.val_main_v18 (F := Ideal) x0 x2 (ix2 e 1)
    = Cert.ReferenceIdeal.Read.val_main_v15 (F := Ideal) x2 (ix1 e) := by
  unfold Cert.ReferenceIdeal.Read.val_main_v18 Cert.ReferenceIdeal.Read.val_main_v17
  rw [pair_apply_one, col_apply]

/-- A product id in range is not wrapped by the kernel: the column is `prod - 100000`. -/
theorem kernel_col_val (h : 100000 ≤ (x2 (ix1 e)).toInt ∧ (x2 (ix1 e)).toInt < 100500) :
    Cert.KernelIdeal.KHost.colIdx (F := Ideal) x2 (ix1 e) = x2 (ix1 e) - 100000#32 := by
  show Scalar.select (IntOp.cmpi .slt (x2 (ix1 e) - 100000#32) 0#32)
    (IntOp.addi (x2 (ix1 e) - 100000#32) 512#32) (x2 (ix1 e) - 100000#32) = _
  rw [prod_not_neg _ h, select_zero]

/-- Nor by the reference. -/
theorem reference_col_val (h : 100000 ≤ (x2 (ix1 e)).toInt ∧ (x2 (ix1 e)).toInt < 100500) :
    Cert.ReferenceIdeal.Read.val_main_v15 (F := Ideal) x2 (ix1 e) = x2 (ix1 e) - 100000#32 := by
  show Scalar.select (IntOp.cmpi .slt (x2 (ix1 e) - 100000#32) 0#32)
    (IntOp.addi (x2 (ix1 e) - 100000#32) 500#32) (x2 (ix1 e) - 100000#32) = _
  rw [prod_not_neg _ h, select_zero]

end Edges

/-! ## An edge lands on the same real entry in both tables -/

/-- With every product id in range, edge `e` is sent to `(f, q)` of the padded table exactly when it is sent to
    `(f, q)` of the unpadded one: the firm word is the same, and the product word `prod - 100000` is wrapped by
    neither program. -/
theorem lands_iff (x0 x2 : (⟨Cert.KernelIdeal.S4000000, .i32⟩ : BufTy).Contents (Elt Ideal))
    (hp : ∀ e : Fin 4000000, 100000 ≤ (x2 (ix1 e)).toInt ∧ (x2 (ix1 e)).toInt < 100500)
    (f : Fin 100000) (q : Fin 500) (e : Fin 4000000) :
    ((Cert.KernelIdeal.KHost.scatIdx (F := Ideal) x0 x2 (ix2 e 0)).toInt = (f.val : Int) ∧
      (Cert.KernelIdeal.KHost.scatIdx (F := Ideal) x0 x2 (ix2 e 1)).toInt = ((Cert.Spec.up q).val : Int)) ↔
    ((Cert.ReferenceIdeal.Read.val_main_v18 (F := Ideal) x0 x2 (ix2 e 0)).toInt = (f.val : Int) ∧
      (Cert.ReferenceIdeal.Read.val_main_v18 (F := Ideal) x0 x2 (ix2 e 1)).toInt = (q.val : Int)) := by
  rw [kernel_row, kernel_col, reference_row, reference_col, row_eq,
    kernel_col_val x2 e (hp e), reference_col_val x2 e (hp e)]
  exact Iff.rfl

/-! ## Both tables start from zero -/

theorem kernel_zero (i : Cert.KernelIdeal.S100000x512.Idx) :
    broadcastInDim Cert.KernelIdeal.S100000x512 ![] Cert.KernelIdeal.Facts₀.bcast_S_S100000x512
      (constant (F := Ideal) Cert.KernelIdeal.S_ .f32 0x00000000#32) i = Ideal.ofBits .f32 0x00000000#32 :=
  broadcastInDim_apply _ Cert.KernelIdeal.Facts₀.bcast_S_S100000x512 _ i (fun a => a.elim0) (fun a => a.elim0)

theorem reference_zero (i : Cert.ReferenceIdeal.S100000x500.Idx) :
    Cert.ReferenceIdeal.Read.val_main_v5 (F := Ideal) i = Ideal.ofBits .f32 0x00000000#32 :=
  Cert.ReferenceIdeal.Read.val_main_v5_apply i

/-! ## The supplied totals agree on the real product columns -/

theorem supplied_agree (x0 x2 : (⟨Cert.KernelIdeal.S4000000, .i32⟩ : BufTy).Contents (Elt Ideal))
    (x3 : (⟨Cert.KernelIdeal.S4000000x4, .f32⟩ : BufTy).Contents (Elt Ideal))
    (hp : ∀ e : Fin 4000000, 100000 ≤ (x2 (ix1 e)).toInt ∧ (x2 (ix1 e)).toInt < 100500)
    (f : Fin 100000) (q : Fin 500) :
    Cert.KernelIdeal.KHost.supplied (F := Ideal) x0 x2 x3 (ix2 f (Cert.Spec.up q))
      = Cert.ReferenceIdeal.Read.val_main_v19 (F := Ideal) x0 x2 x3 (ix2 f q) := by
  have hK := scatterAdd_pairs_apply (φ := .f32)
    Cert.KernelIdeal.Facts₀.scatter_S100000x512_S4000000x2_S4000000_n_01_01_1_wf
    (broadcastInDim Cert.KernelIdeal.S100000x512 ![] Cert.KernelIdeal.Facts₀.bcast_S_S100000x512
      (constant (F := Ideal) Cert.KernelIdeal.S_ .f32 0x00000000#32))
    (Cert.KernelIdeal.KHost.scatIdx (F := Ideal) x0 x2) (Cert.KernelIdeal.KHost.amt (F := Ideal) x3) f (Cert.Spec.up q)
  have hR := scatterAdd_pairs_apply (φ := .f32)
    Cert.ReferenceIdeal.Facts₀.scatter_S100000x500_S4000000x2_S4000000_n_01_01_1_wf
    (Cert.ReferenceIdeal.Read.val_main_v5 (F := Ideal)) (Cert.ReferenceIdeal.Read.val_main_v18 (F := Ideal) x0 x2)
    (Cert.ReferenceIdeal.Read.val_main_v4 (F := Ideal) x3) f q
  refine hK.trans (Eq.trans ?_ hR.symm)
  refine congrArg₂ (· + ·) ?_ ?_
  · exact (kernel_zero _).trans (reference_zero _).symm
  refine Finset.sum_congr (Finset.filter_congr fun j _ => ?_) fun j _ => congrFun (amt_eq x3) j
  exact lands_iff x0 x2 hp f q (j 0)

end Cert.Bridge
end
-- ==== Proof.Attention.lean ====
/-
  The attention weights relu(E · (B · Eᵀ)) over the products. The reference computes them over the 500 real
  products; the kernel program pads the embeddings E with twelve zero rows to E_p and computes the same over 512.
  Read at an index, row q of E_p is row q of E for q < 500 and is zero from 500 on, so at a pair of real products the
  padded score is the same double sum ∑_k E(q,k) · ∑_l B(k,l) · E(j,l) as the reference's, and on a padded row every
  term of the score has the factor 0, so the score vanishes (0 · x = 0 for every extended real x: no finiteness is
  needed) and its positive part is 0.
-/
import proofs.«123789_j74801150427802_2_alg».proof.Proof.Spec
import proofs.«123789_j74801150427802_2_alg».proof.Proof.KHost
import proofs.«123789_j74801150427802_2_alg».proof.Proof.Gen.ReferenceIdeal.Read
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx
open Cert.KernelIdeal.KHost

/-! ## The padded embeddings read at an index -/

/-- A real product's row of the padded embeddings is its row of the embeddings. -/
theorem embPad_up (x4 : (⟨Cert.KernelIdeal.S500x128, .f32⟩ : BufTy).Contents (Elt Ideal)) (q : Fin 500) (k : Fin 128) :
    embPad (F := Ideal) x4 (ix2 (Cert.Spec.up q) k) = x4 (ix2 q k) := by
  unfold embPad
  exact pad_apply_of_inside _ _ _ x4 _ _ _ (ix2 (Cert.Spec.up q) k) (ix2 q k) (fun a => match a with
    | ⟨0, _⟩ => by show q.val = 0 + q.val * (0 + 1); omega
    | ⟨1, _⟩ => by show k.val = 0 + k.val * (0 + 1); omega)

/-- From row 500 on the padded embeddings are the padding value, the integer zero converted: zero. -/
theorem embPad_pad (x4 : (⟨Cert.KernelIdeal.S500x128, .f32⟩ : BufTy).Contents (Elt Ideal)) (q : Fin 512) (hq : 500 ≤ q.val)
    (k : Fin 128) : embPad (F := Ideal) x4 (ix2 q k) = 0 := by
  unfold embPad
  refine (pad_apply_of_not_inside _ _ _ x4 _ _ _ (ix2 q k) (0 : Fin 2) (fun hin => ?_)).trans ?_
  · have h3 : (q.val - 0) / (0 + 1) < 500 := hin.2.2
    omega
  · show ((((0#32 : BitVec 32).toInt : ℤ) : ℝ) : EReal) = 0
    simp

/-! ## The two products read at an index -/

section Dots
open Cert.KernelIdeal

theorem lhsB_0 (i : S128x512.Idx) (c : dot_S128x128_S128x512_S128x512_1_0_0_1_n_n.contr.Idx) :
    (dot_S128x128_S128x512_S128x512_1_0_0_1_n_n.lhsIdx i c 0).val = (i 0).val := by
  unfold DotDims.lhsIdx
  rw [dif_neg (show ¬(0 : Fin S128x128.rank) ∈ dot_S128x128_S128x512_S128x512_1_0_0_1_n_n.lhsBatch by decide),
    dif_pos (show (0 : Fin S128x128.rank) ∈ dot_S128x128_S128x512_S128x512_1_0_0_1_n_n.lhsNonContracting by decide)]
  rfl
theorem lhsB_1 (i : S128x512.Idx) (c : dot_S128x128_S128x512_S128x512_1_0_0_1_n_n.contr.Idx) :
    (dot_S128x128_S128x512_S128x512_1_0_0_1_n_n.lhsIdx i c 1).val = (c ⟨0, by decide⟩).val :=
  dot_S128x128_S128x512_S128x512_1_0_0_1_n_n.lhsIdx_val_of_single rfl i c
theorem rhsB_0 (i : S128x512.Idx) (c : dot_S128x128_S128x512_S128x512_1_0_0_1_n_n.contr.Idx) :
    (dot_S128x128_S128x512_S128x512_1_0_0_1_n_n.rhsIdx i c 0).val = (c ⟨0, by decide⟩).val :=
  dot_S128x128_S128x512_S128x512_1_0_0_1_n_n.rhsIdx_val_of_single rfl i c
theorem rhsB_1 (i : S128x512.Idx) (c : dot_S128x128_S128x512_S128x512_1_0_0_1_n_n.contr.Idx) :
    (dot_S128x128_S128x512_S128x512_1_0_0_1_n_n.rhsIdx i c 1).val = (i 1).val := by
  unfold DotDims.rhsIdx
  rw [dif_neg (show ¬(1 : Fin S128x512.rank) ∈ dot_S128x128_S128x512_S128x512_1_0_0_1_n_n.rhsBatch by decide),
    dif_pos (show (1 : Fin S128x512.rank) ∈ dot_S128x128_S128x512_S128x512_1_0_0_1_n_n.rhsNonContracting by decide)]
  rfl

/-- Entry (k, j) of B · E_pᵀ is ∑_l B(k,l) · E_p(j,l). -/
theorem bilin_apply (x4 : (⟨S500x128, .f32⟩ : BufTy).Contents (Elt Ideal)) (x5 : (⟨S128x128, .f32⟩ : BufTy).Contents (Elt Ideal))
    (k : Fin 128) (j : Fin 512) :
    bilin (F := Ideal) x4 x5 (ix2 k j) = ∑ l : Fin 128, x5 (ix2 k l) * embPad (F := Ideal) x4 (ix2 j l) := by
  unfold bilin
  generalize embPad (F := Ideal) x4 = y0
  simp only [Host.dotGeneral]
  rw [Ideal.dotGeneral_apply, ← Equiv.sum_comp (contrEquiv1 dot_S128x128_S128x512_S128x512_1_0_0_1_n_n 128 rfl rfl).symm]
  refine Finset.sum_congr rfl fun l _ => ?_
  have hl := contrEquiv1_symm_val dot_S128x128_S128x512_S128x512_1_0_0_1_n_n 128 rfl rfl l
  have el : dot_S128x128_S128x512_S128x512_1_0_0_1_n_n.lhsIdx (ix2 k j)
      ((contrEquiv1 dot_S128x128_S128x512_S128x512_1_0_0_1_n_n 128 rfl rfl).symm l) = ix2 k l := funext fun a => Fin.ext (by
    match a with
    | ⟨0, _⟩ => exact lhsB_0 _ _
    | ⟨1, _⟩ => exact (lhsB_1 _ _).trans hl)
  have er : dot_S128x128_S128x512_S128x512_1_0_0_1_n_n.rhsIdx (ix2 k j)
      ((contrEquiv1 dot_S128x128_S128x512_S128x512_1_0_0_1_n_n 128 rfl rfl).symm l) = ix2 l j := funext fun a => Fin.ext (by
    match a with
    | ⟨0, _⟩ => exact (rhsB_0 _ _).trans hl
    | ⟨1, _⟩ => exact rhsB_1 _ _)
  rw [el, er]
  congr 1
  exact transpose_apply [1, 0] y0 Facts₀.transposes_S512x128_S128x512_1_0 (ix2 l j) (ix2 j l) (fun b => match b with
    | ⟨0, _⟩ => rfl
    | ⟨1, _⟩ => rfl)

theorem lhsS_0 (i : S512x512.Idx) (c : dot_S512x128_S128x512_S512x512_1_0_0_1_n_n.contr.Idx) :
    (dot_S512x128_S128x512_S512x512_1_0_0_1_n_n.lhsIdx i c 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
theorem lhsS_1 (i : S512x512.Idx) (c : dot_S512x128_S128x512_S512x512_1_0_0_1_n_n.contr.Idx) :
    (dot_S512x128_S128x512_S512x512_1_0_0_1_n_n.lhsIdx i c 1).val = (c ⟨0, by decide⟩).val :=
  dot_S512x128_S128x512_S512x512_1_0_0_1_n_n.lhsIdx_val_of_single rfl i c
theorem rhsS_0 (i : S512x512.Idx) (c : dot_S512x128_S128x512_S512x512_1_0_0_1_n_n.contr.Idx) :
    (dot_S512x128_S128x512_S512x512_1_0_0_1_n_n.rhsIdx i c 0).val = (c ⟨0, by decide⟩).val :=
  dot_S512x128_S128x512_S512x512_1_0_0_1_n_n.rhsIdx_val_of_single rfl i c
theorem rhsS_1 (i : S512x512.Idx) (c : dot_S512x128_S128x512_S512x512_1_0_0_1_n_n.contr.Idx) :
    (dot_S512x128_S128x512_S512x512_1_0_0_1_n_n.rhsIdx i c 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- Entry (q, j) of E_p · (B · E_pᵀ) is ∑_k E_p(q,k) · (B · E_pᵀ)(k,j). -/
theorem scores_apply (x4 : (⟨S500x128, .f32⟩ : BufTy).Contents (Elt Ideal)) (x5 : (⟨S128x128, .f32⟩ : BufTy).Contents (Elt Ideal))
    (q j : Fin 512) :
    scores (F := Ideal) x4 x5 (ix2 q j)
      = ∑ k : Fin 128, embPad (F := Ideal) x4 (ix2 q k) * bilin (F := Ideal) x4 x5 (ix2 k j) := by
  unfold scores
  generalize embPad (F := Ideal) x4 = y0
  generalize bilin (F := Ideal) x4 x5 = y1
  simp only [Host.dotGeneral]
  rw [Ideal.dotGeneral_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 q j)
      ((contrEquiv1 dot_S512x128_S128x512_S512x512_1_0_0_1_n_n 128 rfl rfl).symm k) = ix2 q k := funext fun a => Fin.ext (by
    match a with
    | ⟨0, _⟩ => exact lhsS_0 _ _
    | ⟨1, _⟩ => exact (lhsS_1 _ _).trans hk)
  have er : dot_S512x128_S128x512_S512x512_1_0_0_1_n_n.rhsIdx (ix2 q j)
      ((contrEquiv1 dot_S512x128_S128x512_S512x512_1_0_0_1_n_n 128 rfl rfl).symm k) = ix2 k j := funext fun a => Fin.ext (by
    match a with
    | ⟨0, _⟩ => exact (rhsS_0 _ _).trans hk
    | ⟨1, _⟩ => exact rhsS_1 _ _)
  rw [el, er]

/-- The padded attention weight is the positive part of the padded score. -/
theorem att_apply (x4 : (⟨S500x128, .f32⟩ : BufTy).Contents (Elt Ideal)) (x5 : (⟨S128x128, .f32⟩ : BufTy).Contents (Elt Ideal))
    (i : S512x512.Idx) :
    att (F := Ideal) x4 x5 i = max (scores (F := Ideal) x4 x5 i) 0 := by
  show max (scores (F := Ideal) x4 x5 i) (Ideal.ofBits .f32 0x00000000#32) = _
  rw [Ideal.ofBits_zero_f32]

end Dots

/-! ## The reference's attention weight as the double sum -/

section Ref
open Cert.ReferenceIdeal Cert.ReferenceIdeal.Read

/-- The reference's attention weight at a pair of products: the positive part of ∑_k E(q,k) · ∑_l B(k,l) · E(j,l). -/
theorem ref_att_apply (x4 : (⟨S500x128, .f32⟩ : BufTy).Contents (Elt Ideal)) (x5 : (⟨S128x128, .f32⟩ : BufTy).Contents (Elt Ideal))
    (q j : Fin 500) :
    val_main_v23 (F := Ideal) x4 x5 (ix2 q j)
      = max (∑ k : Fin 128, x4 (ix2 q k) * ∑ l : Fin 128, x5 (ix2 k l) * x4 (ix2 j l)) 0 := by
  have hz : val_main_call1_v0 (F := Ideal) (ix2 q j) = 0 := by
    rw [val_main_call1_v0_apply, val_main_call1_cst_apply]
    exact Ideal.ofBits_zero_f32
  rw [val_main_v23_apply, hz, Ideal.maximumf_def, val_main_v22_apply]
  congr 1
  refine Finset.sum_congr rfl fun k _ => ?_
  have e1 : lidx_main_v22 (ix2 q j) k = ix2 q k := funext fun a => match a with
    | ⟨0, _⟩ => rfl
    | ⟨1, _⟩ => rfl
  have e2 : ridx_main_v22 (ix2 q j) k = ix2 k j := funext fun a => match a with
    | ⟨0, _⟩ => rfl
    | ⟨1, _⟩ => rfl
  rw [e1, e2, val_main_v21_apply]
  congr 1
  refine Finset.sum_congr rfl fun l _ => ?_
  have e3 : lidx_main_v21 (ix2 k j) l = ix2 k l := funext fun a => match a with
    | ⟨0, _⟩ => rfl
    | ⟨1, _⟩ => rfl
  have e4 : ridx_main_v21 (ix2 k j) l = ix2 l j := funext fun a => match a with
    | ⟨0, _⟩ => rfl
    | ⟨1, _⟩ => rfl
  have e5 : idx_main_v20 (ix2 l j) = ix2 j l := funext fun a => match a with
    | ⟨0, _⟩ => rfl
    | ⟨1, _⟩ => rfl
  rw [e3, e4, val_main_v20_apply, e5]

end Ref

/-! ## The two statements -/

/-- At a pair of real products the padded attention weight is the reference's. -/
theorem att_agree (x4 : (⟨Cert.KernelIdeal.S500x128, .f32⟩ : BufTy).Contents (Elt Ideal))
    (x5 : (⟨Cert.KernelIdeal.S128x128, .f32⟩ : BufTy).Contents (Elt Ideal)) (q j : Fin 500) :
    Cert.KernelIdeal.KHost.att (F := Ideal) x4 x5 (ix2 (Cert.Spec.up q) (Cert.Spec.up j))
      = Cert.ReferenceIdeal.Read.val_main_v23 (F := Ideal) x4 x5 (ix2 q j) := by
  rw [ref_att_apply, att_apply, scores_apply]
  congr 1
  refine Finset.sum_congr rfl fun k _ => ?_
  rw [embPad_up, bilin_apply]
  congr 1
  refine Finset.sum_congr rfl fun l _ => ?_
  rw [embPad_up]

/-- On a padded row the attention weight is zero: every term of the score has the factor 0. -/
theorem att_pad (x4 : (⟨Cert.KernelIdeal.S500x128, .f32⟩ : BufTy).Contents (Elt Ideal))
    (x5 : (⟨Cert.KernelIdeal.S128x128, .f32⟩ : BufTy).Contents (Elt Ideal)) (q : Fin 512) (hq : 500 ≤ q.val) (j : Fin 512) :
    Cert.KernelIdeal.KHost.att (F := Ideal) x4 x5 (ix2 q j) = 0 := by
  rw [att_apply, scores_apply]
  have h0 : ∑ k : Fin 128, embPad (F := Ideal) x4 (ix2 q k) * bilin (F := Ideal) x4 x5 (ix2 k j) = 0 :=
    Finset.sum_eq_zero fun k _ => by rw [embPad_pad x4 q hq k, zero_mul]
  rw [h0, max_self]

end Cert.Bridge

end
-- ==== Proof.RefRows.lean ====
/-
  The reference's two per-firm losses, read at one firm. Its debt loss at firm f is the weight 10 times the sum over the
  500 products j of max(consumed(f, j) − inventory(f, j), 0), and its consumption loss is the weight 1 times the sum of
  consumed(f, j), where consumed(f, j) = Σ_q supplied(f, q) · attention(q, j) is one entry of the product of the supplied
  totals with the attention matrix. Each stage of the reference is read at an index from its operands at an index; the
  row sums start from the zero word, which is 0 and drops out; the weights stay the words both programs carry.
-/
import proofs.«123789_j74801150427802_2_alg».proof.Proof.Spec
import proofs.«123789_j74801150427802_2_alg».proof.Proof.Gen.ReferenceIdeal.Read

noncomputable section

open scoped BigOperators

namespace Cert.Bridge

open Idealize.ShloMosaic Idealize.ShloMosaic.ValueIdx Cert.ReferenceIdeal Cert.ReferenceIdeal.Read

/-- The k-th term of firm f's row sum of the clipped shortfall sits at (f, k). -/
theorem idx_debt_row (f : Fin 100000) (k : Fin 500) : idx_main_v28 (ix1 f) k = ix2 f k :=
  funext fun a => Fin.ext (by match a with | ⟨0, _⟩ => rfl | ⟨1, _⟩ => rfl)

/-- The k-th term of firm f's row sum of the consumed amounts sits at (f, k). -/
theorem idx_cons_row (f : Fin 100000) (k : Fin 500) : idx_main_v31 (ix1 f) k = ix2 f k :=
  funext fun a => Fin.ext (by match a with | ⟨0, _⟩ => rfl | ⟨1, _⟩ => rfl)

/-- The q-th term of consumed(f, j) reads the supplied totals at (f, q) … -/
theorem idx_consumed_lhs (f : Fin 100000) (j q : Fin 500) : lidx_main_v24 (ix2 f j) q = ix2 f q :=
  funext fun a => Fin.ext (by match a with | ⟨0, _⟩ => rfl | ⟨1, _⟩ => rfl)

/-- … and the attention matrix at (q, j). -/
theorem idx_consumed_rhs (f : Fin 100000) (j q : Fin 500) : ridx_main_v24 (ix2 f j) q = ix2 q j :=
  funext fun a => Fin.ext (by match a with | ⟨0, _⟩ => rfl | ⟨1, _⟩ => rfl)

/-- consumed(f, j): row f of the supplied totals against column j of the attention matrix. -/
theorem ref_consumed (x0 x2 : (⟨S4000000, .i32⟩ : BufTy).Contents (Elt Ideal)) (x3 : (⟨S4000000x4, .f32⟩ : BufTy).Contents (Elt Ideal))
    (x4 : (⟨S500x128, .f32⟩ : BufTy).Contents (Elt Ideal)) (x5 : (⟨S128x128, .f32⟩ : BufTy).Contents (Elt Ideal))
    (f : Fin 100000) (j : Fin 500) :
    val_main_v24 (F := Ideal) x0 x2 x3 x4 x5 (ix2 f j) =
      ∑ q : Fin 500, val_main_v19 (F := Ideal) x0 x2 x3 (ix2 f q) * val_main_v23 (F := Ideal) x4 x5 (ix2 q j) := by
  rw [val_main_v24_apply]
  refine Finset.sum_congr rfl fun q _ => ?_
  rw [idx_consumed_lhs, idx_consumed_rhs]

/-- The reference's debt loss of firm f is the specification's, of the firm's consumed amounts and inventory. -/
theorem ref_debt (x0 x2 : (⟨S4000000, .i32⟩ : BufTy).Contents (Elt Ideal)) (x3 : (⟨S4000000x4, .f32⟩ : BufTy).Contents (Elt Ideal))
    (x4 : (⟨S500x128, .f32⟩ : BufTy).Contents (Elt Ideal)) (x5 : (⟨S128x128, .f32⟩ : BufTy).Contents (Elt Ideal))
    (x6 : (⟨S100000x500, .f32⟩ : BufTy).Contents (Elt Ideal)) (f : Fin 100000) :
    val_main_v30 (F := Ideal) x0 x2 x3 x4 x5 x6 (ix1 f) =
      Cert.Spec.debtRow (fun j : Fin 500 => ∑ q : Fin 500, val_main_v19 (F := Ideal) x0 x2 x3 (ix2 f q) * val_main_v23 (F := Ideal) x4 x5 (ix2 q j))
        (fun j : Fin 500 => x6 (ix2 f j)) := by
  rw [val_main_v30_apply, val_main_v29_apply, val_main_cst_7_apply, val_main_v28_apply, val_main_cst_6_apply]
  rw [Ideal.ofBits_def, Ideal.ofBits_def, Ideal.mulf_def, Ideal.ofBits_zero_f32, zero_add]
  unfold Cert.Spec.debtRow Cert.Spec.wDebt
  refine congrArg (_ * ·) (Finset.sum_congr rfl fun k _ => ?_)
  rw [idx_debt_row, val_main_v27_apply, val_main_v25_apply, val_main_v26_apply, val_main_cst_5_apply, ref_consumed,
    Ideal.ofBits_def, Ideal.ofBits_zero_f32, Ideal.maximumf_def, Ideal.subf_def]

/-- The reference's consumption loss of firm f is the specification's, of the firm's consumed amounts. -/
theorem ref_cons (x0 x2 : (⟨S4000000, .i32⟩ : BufTy).Contents (Elt Ideal)) (x3 : (⟨S4000000x4, .f32⟩ : BufTy).Contents (Elt Ideal))
    (x4 : (⟨S500x128, .f32⟩ : BufTy).Contents (Elt Ideal)) (x5 : (⟨S128x128, .f32⟩ : BufTy).Contents (Elt Ideal))
    (f : Fin 100000) :
    val_main_v33 (F := Ideal) x0 x2 x3 x4 x5 (ix1 f) =
      Cert.Spec.consRow (fun j : Fin 500 => ∑ q : Fin 500, val_main_v19 (F := Ideal) x0 x2 x3 (ix2 f q) * val_main_v23 (F := Ideal) x4 x5 (ix2 q j)) := by
  rw [val_main_v33_apply, val_main_v32_apply, val_main_cst_9_apply, val_main_v31_apply, val_main_cst_8_apply]
  rw [Ideal.ofBits_def, Ideal.ofBits_def, Ideal.mulf_def, Ideal.ofBits_zero_f32, zero_add]
  unfold Cert.Spec.consRow Cert.Spec.wCons
  refine congrArg (_ * ·) (Finset.sum_congr rfl fun k _ => ?_)
  rw [idx_cons_row, ref_consumed]

end Cert.Bridge

end
-- ==== Proof.Bridge.lean ====
/-
  The bridge between the two programs. With every product id in range, the kernel's supplied totals (scattered into a
  table padded to 512 product columns) agree with the reference's on the 500 real columns; the padded attention
  weights agree with the reference's on the real products and vanish on the twelve padded rows; so each firm's consumed
  amounts — a sum over 512 terms of which the last twelve are zero — are the reference's sums over 500 terms, and the
  per-firm debt and consumption losses are equal. Both programs then reduce the two loss vectors by the same three sums.
-/
import proofs.«123789_j74801150427802_2_alg».proof.Proof.Spec
import proofs.«123789_j74801150427802_2_alg».proof.Proof.KHost
import proofs.«123789_j74801150427802_2_alg».proof.Proof.KPre
import proofs.«123789_j74801150427802_2_alg».proof.Proof.KTail
import proofs.«123789_j74801150427802_2_alg».proof.Proof.KArr
import proofs.«123789_j74801150427802_2_alg».proof.Proof.KValue
import proofs.«123789_j74801150427802_2_alg».proof.Proof.Scatter
import proofs.«123789_j74801150427802_2_alg».proof.Proof.Attention
import proofs.«123789_j74801150427802_2_alg».proof.Proof.RefRows
import proofs.«123789_j74801150427802_2_alg».proof.Proof.Gen.ReferenceIdeal.Read
import Idealize.ShloMosaic.Lib.Pipeline.Value
import Idealize.ShloMosaic.Lib.ValueIdx

noncomputable section

open scoped BigOperators

namespace Cert.Bridge

open Idealize.ShloMosaic Idealize.ShloMosaic.TcCoe Idealize.SL.Sem Idealize.ShloMosaic.ValueIdx
open Cert.KernelIdeal (nD τ sig)

variable (m : (ℓ : Loc nD τ sig) → Buf (Elt Ideal) ℓ) (c : Dev nD)

/-- The product ids on core `c` are in range. -/
def InRange : Prop := ∀ e : Fin 4000000, 100000 ≤ (((m ((c.tc : Thread Cert.KernelIdeal.nD Cert.KernelIdeal.τ).loc Cert.KernelIdeal.main_arg2)) : (⟨Cert.KernelIdeal.S4000000, .i32⟩ : BufTy).Contents (Elt Ideal)) (ix1 e)).toInt
  ∧ (((m ((c.tc : Thread Cert.KernelIdeal.nD Cert.KernelIdeal.τ).loc Cert.KernelIdeal.main_arg2)) : (⟨Cert.KernelIdeal.S4000000, .i32⟩ : BufTy).Contents (Elt Ideal)) (ix1 e)).toInt < 100500

/-- One firm's consumed amount of one product: the kernel's sum over the padded axis is the reference's sum. -/
theorem consumed_eq (hp : InRange m c) (f : Fin 100000) (j : Fin 500) :
    ∑ q : Fin 512, Cert.KernelIdeal.KArr.sup m c (ix2 f q) * Cert.KernelIdeal.KArr.att m c (ix2 q (Cert.Spec.up j))
      = ∑ q : Fin 500, Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ix2 f q)
        * Cert.ReferenceIdeal.Read.val_main_v23 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix2 q j) := by
  rw [Cert.KernelIdeal.KArr.sup_eq, Cert.KernelIdeal.KArr.att_eq, Cert.KernelIdeal.KPre.V_supplied, Cert.KernelIdeal.KPre.V_att]
  exact Cert.Spec.consumed_pad _ _ _ _ (fun q => supplied_agree _ _ _ hp f q) (fun q => att_agree _ _ q j)
    (fun q hq => att_pad _ _ q hq (Cert.Spec.up j))

/-- The whole row of consumed amounts, as one function of the product. -/
theorem consumed_row_eq (hp : InRange m c) (f : Fin 100000) :
    (fun j : Fin 500 => ∑ q : Fin 512, Cert.KernelIdeal.KArr.sup m c (ix2 f q) * Cert.KernelIdeal.KArr.att m c (ix2 q (Cert.Spec.up j)))
      = fun j : Fin 500 => ∑ q : Fin 500, Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ix2 f q)
        * Cert.ReferenceIdeal.Read.val_main_v23 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (ix2 q j) :=
  funext fun j => consumed_eq m c hp f j

/-- The inventory row the region finds is the argument's. -/
theorem inv_row_eq (f : Fin 100000) :
    (fun j : Fin 500 => Cert.KernelIdeal.KArr.inv m c (ix2 f j))
      = fun j : Fin 500 => ((m ((c.tc : Thread Cert.KernelIdeal.nD Cert.KernelIdeal.τ).loc Cert.KernelIdeal.main_arg6)) : Cert.KernelIdeal.S100000x500.Idx → EReal) (ix2 f j) := by
  rw [Cert.KernelIdeal.KArr.inv_eq, Cert.KernelIdeal.Gen.V_main_arg6 m c]

/-- The flattened column at a firm is the column's entry in that row. -/
theorem flat_apply (x : (⟨Cert.KernelIdeal.S100000x1, .f32⟩ : BufTy).Contents (Elt Ideal)) (f : Fin 100000) :
    Cert.KernelIdeal.KTail.flat x (ix1 f) = x (ix2 f (0 : Fin 1)) := by
  unfold Cert.KernelIdeal.KTail.flat
  exact shapeCast_apply x _ (ix1 f) (ix2 f (0 : Fin 1))
    (by rewrite [Shape.rowMajor_val_two, Shape.rowMajor_val_one]; show f.val * 1 + 0 = f.val; omega)

/-- The kernel's debt vector is the reference's. -/
theorem debt_eq (hp : InRange m c) :
    Cert.KernelIdeal.KTail.flat (Cert.KernelIdeal.KTail.debtCol m c)
      = Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext i
  obtain ⟨f, rfl⟩ : ∃ f : Fin 100000, i = ix1 f := ⟨i 0, eq_ix1 i⟩
  rw [flat_apply, ref_debt, Cert.KernelIdeal.KValue.debt_final m c f, consumed_row_eq m c hp f, inv_row_eq m c f]

/-- The kernel's consumption vector is the reference's. -/
theorem cons_eq (hp : InRange m c) :
    Cert.KernelIdeal.KTail.flat (Cert.KernelIdeal.KTail.consCol m c)
      = Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext i
  obtain ⟨f, rfl⟩ : ∃ f : Fin 100000, i = ix1 f := ⟨i 0, eq_ix1 i⟩
  rw [flat_apply, ref_cons, Cert.KernelIdeal.KValue.cons_final m c f, consumed_row_eq m c hp f]

/-- The reference's three results are the same three sums of its two loss vectors. -/
theorem ref_out0 (x0 x2 : (⟨Cert.ReferenceIdeal.S4000000, .i32⟩ : BufTy).Contents (Elt Ideal)) (x3 : (⟨Cert.ReferenceIdeal.S4000000x4, .f32⟩ : BufTy).Contents (Elt Ideal))
    (x4 : (⟨Cert.ReferenceIdeal.S500x128, .f32⟩ : BufTy).Contents (Elt Ideal)) (x5 : (⟨Cert.ReferenceIdeal.S128x128, .f32⟩ : BufTy).Contents (Elt Ideal))
    (x6 : (⟨Cert.ReferenceIdeal.S100000x500, .f32⟩ : BufTy).Contents (Elt Ideal)) :
    Cert.ReferenceIdeal.Read.val_main_v36 (F := Ideal) x0 x2 x3 x4 x5 x6
      = Cert.KernelIdeal.KTail.fin0 (Cert.ReferenceIdeal.Read.val_main_v30 (F := Ideal) x0 x2 x3 x4 x5 x6) (Cert.ReferenceIdeal.Read.val_main_v33 (F := Ideal) x0 x2 x3 x4 x5) := rfl
theorem ref_out1 (x0 x2 : (⟨Cert.ReferenceIdeal.S4000000, .i32⟩ : BufTy).Contents (Elt Ideal)) (x3 : (⟨Cert.ReferenceIdeal.S4000000x4, .f32⟩ : BufTy).Contents (Elt Ideal))
    (x4 : (⟨Cert.ReferenceIdeal.S500x128, .f32⟩ : BufTy).Contents (Elt Ideal)) (x5 : (⟨Cert.ReferenceIdeal.S128x128, .f32⟩ : BufTy).Contents (Elt Ideal))
    (x6 : (⟨Cert.ReferenceIdeal.S100000x500, .f32⟩ : BufTy).Contents (Elt Ideal)) :
    Cert.ReferenceIdeal.Read.val_main_v38 (F := Ideal) x0 x2 x3 x4 x5 x6
      = Cert.KernelIdeal.KTail.fin1 (Cert.ReferenceIdeal.Read.val_main_v30 (F := Ideal) x0 x2 x3 x4 x5 x6) := rfl
theorem ref_out2 (x0 x2 : (⟨Cert.ReferenceIdeal.S4000000, .i32⟩ : BufTy).Contents (Elt Ideal)) (x3 : (⟨Cert.ReferenceIdeal.S4000000x4, .f32⟩ : BufTy).Contents (Elt Ideal))
    (x4 : (⟨Cert.ReferenceIdeal.S500x128, .f32⟩ : BufTy).Contents (Elt Ideal)) (x5 : (⟨Cert.ReferenceIdeal.S128x128, .f32⟩ : BufTy).Contents (Elt Ideal)) :
    Cert.ReferenceIdeal.Read.val_main_v40 (F := Ideal) x0 x2 x3 x4 x5
      = Cert.KernelIdeal.KTail.fin1 (Cert.ReferenceIdeal.Read.val_main_v33 (F := Ideal) x0 x2 x3 x4 x5) := rfl

end Cert.Bridge

end
-- ==== Proof.lean ====
/-
  The certificate's five claims. The kernel computes, firm by firm, the consumed amounts `supplied · attention` over a
  product axis padded from 500 to 512 (the supplied totals scattered into a 512-wide table, the attention weights
  `relu(E_p · B · E_pᵀ)` built from embeddings padded by twelve zero rows), slices them back to the 500 real products,
  and from them the debt loss 10 · Σ_j max(consumed_j − inventory_j, 0) and the consumption loss 1 · Σ_j consumed_j;
  the reference computes the same two losses over the 500 products directly. Both then return the sum of
  (debt − consumption), of the debts and of the consumptions over the firms, each over the number of edges.

  With every product id in its range (the added conjunct of the precondition: jnp wraps a negative index by the axis
  length, 512 on one side and 500 on the other, so out of range the two tables differ), the two tables agree on the
  real columns and the padded attention rows are exactly zero, 0 · x = 0 on the extended reals, and so the padded
  terms drop out of every consumed amount with no finiteness assumption. The finiteness conjuncts are not used.

  The three frames are the generated ones (the reference's is its generated run with the results dropped);
  `preserves` is `True`: the ideal pass rewrote nothing.
-/
import proofs.«123789_j74801150427802_2_alg».proof.Defs
import proofs.«123789_j74801150427802_2_alg».proof.Proof.Gen.Kernel
import proofs.«123789_j74801150427802_2_alg».proof.Proof.Gen.Kernel.Skeleton
import proofs.«123789_j74801150427802_2_alg».proof.Proof.Gen.Kernel.Launch
import proofs.«123789_j74801150427802_2_alg».proof.Proof.Gen.Kernel.Points
import proofs.«123789_j74801150427802_2_alg».proof.Proof.Gen.Kernel.Frame
import proofs.«123789_j74801150427802_2_alg».proof.Proof.Gen.KernelIdeal
import proofs.«123789_j74801150427802_2_alg».proof.Proof.Gen.KernelIdeal.Skeleton
import proofs.«123789_j74801150427802_2_alg».proof.Proof.Gen.KernelIdeal.Launch
import proofs.«123789_j74801150427802_2_alg».proof.Proof.Gen.KernelIdeal.Points
import proofs.«123789_j74801150427802_2_alg».proof.Proof.Gen.KernelIdeal.Frame
import proofs.«123789_j74801150427802_2_alg».proof.Proof.Gen.ReferenceIdeal
import proofs.«123789_j74801150427802_2_alg».proof.Proof.Gen.Pre_finite_inputs
import proofs.«123789_j74801150427802_2_alg».proof.Proof.Gen.ReferenceIdeal.Run
import proofs.«123789_j74801150427802_2_alg».proof.Proof.Gen.ReferenceIdeal.Read
import proofs.«123789_j74801150427802_2_alg».proof.Proof.KRun
import proofs.«123789_j74801150427802_2_alg».proof.Proof.PreRange
import proofs.«123789_j74801150427802_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The two idealized programs, from memories agreeing on the arguments with the product ids in range, end with the
    same three results: the three sums of two loss vectors that are equal firm by firm. -/
theorem algebraic : Cert.algebraic_KernelIdeal_ReferenceIdeal := by
  intro m ρ m' ρ' hpre hagree
  have hp : ∀ c, Cert.Bridge.InRange m c := fun c e => Cert.Bridge.prod_range _ _ _ _ _ _ _ (hpre c) e
  refine ⟨fun c => Cert.KernelIdeal.KTail.fin0 (Cert.KernelIdeal.KTail.flat (Cert.KernelIdeal.KTail.debtCol m c))
        (Cert.KernelIdeal.KTail.flat (Cert.KernelIdeal.KTail.consCol m c)),
    fun c => Cert.KernelIdeal.KTail.fin1 (Cert.KernelIdeal.KTail.flat (Cert.KernelIdeal.KTail.debtCol m c)),
    fun c => Cert.KernelIdeal.KTail.fin1 (Cert.KernelIdeal.KTail.flat (Cert.KernelIdeal.KTail.consCol m c)),
    Cert.KernelIdeal.KRun.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v36_eq, (hagree c).1, (hagree c).2.2.1, (hagree c).2.2.2.1, (hagree c).2.2.2.2.1,
      (hagree c).2.2.2.2.2.1, (hagree c).2.2.2.2.2.2, Cert.Bridge.ref_out0, ← Cert.Bridge.debt_eq m c (hp c), ← Cert.Bridge.cons_eq m c (hp c)]
  · refine (Cert.ReferenceIdeal.Read.val_main_v38_eq (F := Ideal) _ _ _ _ _ _).trans ?_
    rw [(hagree c).1, (hagree c).2.2.1, (hagree c).2.2.2.1, (hagree c).2.2.2.2.1,
      (hagree c).2.2.2.2.2.1, (hagree c).2.2.2.2.2.2, Cert.Bridge.ref_out1, ← Cert.Bridge.debt_eq m c (hp c)]
  · refine (Cert.ReferenceIdeal.Read.val_main_v40_eq (F := Ideal) _ _ _ _ _).trans ?_
    rw [(hagree c).1, (hagree c).2.2.1, (hagree c).2.2.2.1, (hagree c).2.2.2.2.1,
      (hagree c).2.2.2.2.2.1, Cert.Bridge.ref_out2, ← Cert.Bridge.cons_eq m c (hp c)]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
